-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2048 : Shape := ⟨2, ![131072, 2048]⟩
abbrev S4x2048 : Shape := ⟨2, ![4, 2048]⟩
abbrev S4 : Shape := ⟨1, ![4]⟩
abbrev S131072x4 : Shape := ⟨2, ![131072, 4]⟩
abbrev S_ : Shape := ⟨0, ![]⟩

class Facts : Prop where
  bcast_S_S131072x2048 : S_.BroadcastsInDim S131072x2048 (![] : Fin 0 → Fin S131072x2048.rank)
  reducesTo_S131072x2048_S_d0_1 : S131072x2048.ReducesTo [0, 1] S_
  h_S_ : 0 < S_.numel
  bcast_S_S4x2048 : S_.BroadcastsInDim S4x2048 (![] : Fin 0 → Fin S4x2048.rank)
  reducesTo_S4x2048_S_d0_1 : S4x2048.ReducesTo [0, 1] S_
  bcast_S_S4 : S_.BroadcastsInDim S4 (![] : Fin 0 → Fin S4.rank)
  reducesTo_S4_S_d0 : S4.ReducesTo [0] S_
  bcast_S_S131072x4 : S_.BroadcastsInDim S131072x4 (![] : Fin 0 → Fin S131072x4.rank)
  reducesTo_S131072x4_S_d0_1 : S131072x4.ReducesTo [0, 1] S_

variable [Facts]

def fn_part1 {F : FTy → Type} [FloatOps F] (main_v13 : IVec S_ 1) (main_v16 : IVec S131072x4 1) : IVec S_ 1 :=
  let main_c_5 : IVec S_ 1 := constantI S_ 1 1#1
  let main_v17 : IVec S_ 1 := (fun x v => Host.reduce IntOp.andi x v reducesTo_S131072x4_S_d0_1 h_S_) main_v16 main_c_5
  let main_v18 : IVec S_ 1 := andi main_v13 main_v17
  main_v18

def fn {F : FTy → Type} [FloatOps F] (main_arg0 : FVec F S131072x2048 .f32) (main_arg1 : FVec F S4x2048 .f32) (main_arg2 : FVec F S4 .f32) (main_arg3 : FVec F S131072x4 .f32) : IVec S_ 1 :=
  let main_v0 : FVec F S131072x2048 .f32 := Host.absf main_arg0
  let main_cst : FVec F S_ .f32 := constant S_ .f32 0x7F800000#32
  let main_v1 : FVec F S131072x2048 .f32 := broadcastInDim S131072x2048 ![] bcast_S_S131072x2048 main_cst
  let main_v2 : IVec S131072x2048 1 := cmpf .olt main_v0 main_v1
  let main_c : IVec S_ 1 := constantI S_ 1 1#1
  let main_v3 : IVec S_ 1 := (fun x v => Host.reduce IntOp.andi x v reducesTo_S131072x2048_S_d0_1 h_S_) main_v2 main_c
  let main_v4 : FVec F S4x2048 .f32 := Host.absf main_arg1
  let main_cst_0 : FVec F S_ .f32 := constant S_ .f32 0x7F800000#32
  let main_v5 : FVec F S4x2048 .f32 := broadcastInDim S4x2048 ![] bcast_S_S4x2048 main_cst_0
  let main_v6 : IVec S4x2048 1 := cmpf .olt main_v4 main_v5
  let main_c_1 : IVec S_ 1 := constantI S_ 1 1#1
  let main_v7 : IVec S_ 1 := (fun x v => Host.reduce IntOp.andi x v reducesTo_S4x2048_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S131072x4 .f32 := Host.absf main_arg3
  let main_cst_4 : FVec F S_ .f32 := constant S_ .f32 0x7F800000#32
  let main_v15 : FVec F S131072x4 .f32 := broadcastInDim S131072x4 ![] bcast_S_S131072x4 main_cst_4
  let main_v16 : IVec S131072x4 1 := cmpf .olt main_v14 main_v15
  fn_part1 (F := F) main_v13 main_v16
-- ==== Kernel.lean ====
abbrev S131072x2048 : Shape := ⟨2, ![131072, 2048]⟩
abbrev S4x2048 : Shape := ⟨2, ![4, 2048]⟩
abbrev S4 : Shape := ⟨1, ![4]⟩
abbrev S131072x4 : Shape := ⟨2, ![131072, 4]⟩
abbrev S131072 : Shape := ⟨1, ![131072]⟩
abbrev S512x2048 : Shape := ⟨2, ![512, 2048]⟩
abbrev S512x4 : Shape := ⟨2, ![512, 4]⟩
abbrev S512 : Shape := ⟨1, ![512]⟩
abbrev S1x4 : Shape := ⟨2, ![1, 4]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S131072x2048, .f32⟩
  | .hbm, ⟨1, _⟩ => ⟨S4x2048, .f32⟩
  | .hbm, ⟨2, _⟩ => ⟨S4, .f32⟩
  | .hbm, ⟨3, _⟩ => ⟨S131072x4, .f32⟩
  | .hbm, ⟨4, _⟩ => ⟨S131072, .f32⟩
  | .local _ .vmem, ⟨0, _⟩ => ⟨S512x2048, .f32⟩
  | .local _ .vmem, ⟨1, _⟩ => ⟨S512x2048, .f32⟩
  | .local _ .vmem, ⟨2, _⟩ => ⟨S4x2048, .f32⟩
  | .local _ .vmem, ⟨3, _⟩ => ⟨S4, .f32⟩
  | .local _ .vmem, ⟨4, _⟩ => ⟨S512x4, .f32⟩
  | .local _ .vmem, ⟨5, _⟩ => ⟨S512x4, .f32⟩
  | .local _ .vmem, ⟨6, _⟩ => ⟨S512, .f32⟩
  | .local _ .vmem, ⟨7, _⟩ => ⟨S512, .f32⟩
  | _, _ => ⟨S131072x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S4x2048_S4x2048_0_0 : ∀ a, (![0, 0] : Fin 2 → Nat) a + S4x2048.size a ≤ S4x2048.size a
  h_S4x2048 : 0 < S4x2048.numel
  inb_S4_S4_0 : ∀ a, (![0] : Fin 1 → Nat) a + S4.size a ≤ S4.size a
  h_S4 : 0 < S4.numel
  shapeCasts_S4_S1x4 : S4.ShapeCasts S1x4
  broadcasts_S1x4_S512x4 : S1x4.Broadcasts S512x4
  inb_S512x4_S512x4_0_0 : ∀ a, (![0, 0] : Fin 2 → Nat) a + S512x4.size a ≤ S512x4.size a
  h_S512x4 : 0 < S512x4.numel
  reduces_S512x4_S512 : S512x4.Reduces [1] S512
  shapeCasts_S512_S512x1 : S512.ShapeCasts S512x1
  broadcasts_S512x1_S512x4 : S512x1.Broadcasts S512x4
  reduces_S512x2048_S512 : S512x2048.Reduces [1] S512
  natLt_1_32 : 1 < 32
  rotates_S512x2048_d1 : S512x2048.Rotates 1 none
  slices_S512x2048_o0_0_S512x1 : S512x2048.Slices ![0, 0] S512x1
  shapeCasts_S512x1_S512 : S512x1.ShapeCasts S512
  slices_S512x4_o0_0_S512x1 : S512x4.Slices ![0, 0] S512x1
  slices_S512x4_o0_1_S512x1 : S512x4.Slices ![0, 1] S512x1
  slices_S512x4_o0_2_S512x1 : S512x4.Slices ![0, 2] S512x1
  slices_S512x4_o0_3_S512x1 : S512x4.Slices ![0, 3] S512x1
  inb_S512_S512_0 : ∀ a, (![0] : Fin 1 → Nat) a + S512.size a ≤ S512.size a
  h_S512 : 0 < S512.numel
  dot_S512x2048_S4x2048_S512x4_1_1_0_0_n_n_wf : DotDims.WF S512x2048 S4x2048 S512x4 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S131072x2048.size a
  hwx0_0 : ∀ i : grid0.Coords, EltTy.bits .f32 = 32 ∨ (Rect.block (s := S131072x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x2048.size a ≤ S4x2048.size a
  hwx0_1 : ∀ i : grid0.Coords, EltTy.bits .f32 = 32 ∨ (Rect.block (s := S4x2048) S4x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4.size a ≤ S131072x4.size a
  hwx0_3 : ∀ i : grid0.Coords, EltTy.bits .f32 = 32 ∨ (Rect.block (s := S131072x4) S512x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S131072.size a
  hwx0_4 : ∀ i : grid0.Coords, EltTy.bits .f32 = 32 ∨ (Rect.block (s := S131072) S512.size (cc0_transform_4 i) (hinb0_4 i)).WholeWords (EltTy.packing .f32)

variable [Facts₀]

def dot_S512x2048_S4x2048_S512x4_1_1_0_0_n_n : DotDims S512x2048 S4x2048 S512x4 where
  lhsContracting := [1]
  rhsContracting := [1]
  lhsNonContracting := [0]
  rhsNonContracting := [0]
  lhsBatch := []
  rhsBatch := []
  wf := dot_S512x2048_S4x2048_S512x4_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x2048 : Shape := ⟨2, ![131072, 2048]⟩
abbrev S4x2048 : Shape := ⟨2, ![4, 2048]⟩
abbrev S4 : Shape := ⟨1, ![4]⟩
abbrev S131072x4 : Shape := ⟨2, ![131072, 4]⟩
abbrev S1x4 : Shape := ⟨2, ![1, 4]⟩
abbrev S_ : Shape := ⟨0, ![]⟩
abbrev S131072 : Shape := ⟨1, ![131072]⟩
abbrev S131072x1 : Shape := ⟨2, ![131072, 1]⟩
abbrev S131072x2047 : Shape := ⟨2, ![131072, 2047]⟩

abbrev nBuf : Space → Nat
  | .hbm => 63
  | .vmem => 0
  | .smem => 0
  | _ => 0

abbrev bufTy : (tb : Table) → Fin (tcTables nBuf tb) → BufTy
  | .hbm, ⟨0, _⟩ => ⟨S131072x2048, .f32⟩
  | .hbm, ⟨1, _⟩ => ⟨S4x2048, .f32⟩
  | .hbm, ⟨2, _⟩ => ⟨S4, .f32⟩
  | .hbm, ⟨3, _⟩ => ⟨S131072x4, .f32⟩
  | .hbm, ⟨4, _⟩ => ⟨S131072x4, .f32⟩
  | .hbm, ⟨5, _⟩ => ⟨S1x4, .f32⟩
  | .hbm, ⟨6, _⟩ => ⟨S131072x4, .f32⟩
  | .hbm, ⟨7, _⟩ => ⟨S131072x4, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S131072x4, .f32⟩
  | .hbm, ⟨12, _⟩ => ⟨S131072x4, .f32⟩
  | .hbm, ⟨13, _⟩ => ⟨S_, .f32⟩
  | .hbm, ⟨14, _⟩ => ⟨S131072x4, .f32⟩
  | .hbm, ⟨15, _⟩ => ⟨S131072x4, .f32⟩
  | .hbm, ⟨16, _⟩ => ⟨S131072x4, .f32⟩
  | .hbm, ⟨17, _⟩ => ⟨S131072x4, .f32⟩
  | .hbm, ⟨18, _⟩ => ⟨S131072x4, .f32⟩
  | .hbm, ⟨19, _⟩ => ⟨S131072x4, .f32⟩
  | .hbm, ⟨20, _⟩ => ⟨S131072x4, .f32⟩
  | .hbm, ⟨21, _⟩ => ⟨S_, .f32⟩
  | .hbm, ⟨22, _⟩ => ⟨S131072, .f32⟩
  | .hbm, ⟨23, _⟩ => ⟨S_, .f32⟩
  | .hbm, ⟨24, _⟩ => ⟨S131072, .f32⟩
  | .hbm, ⟨25, _⟩ => ⟨S131072, .f32⟩
  | .hbm, ⟨26, _⟩ => ⟨S131072x1, .f32⟩
  | .hbm, ⟨27, _⟩ => ⟨S131072x4, .f32⟩
  | .hbm, ⟨28, _⟩ => ⟨S131072x4, .f32⟩
  | .hbm, ⟨29, _⟩ => ⟨S131072x4, .f32⟩
  | .hbm, ⟨30, _⟩ => ⟨S_, .f32⟩
  | .hbm, ⟨31, _⟩ => ⟨S131072, .f32⟩
  | .hbm, ⟨32, _⟩ => ⟨S131072x1, .f32⟩
  | .hbm, ⟨33, _⟩ => ⟨S131072x4, .f32⟩
  | .hbm, ⟨34, _⟩ => ⟨S131072x4, .f32⟩
  | .hbm, ⟨35, _⟩ => ⟨S_, .f32⟩
  | .hbm, ⟨36, _⟩ => ⟨S131072, .f32⟩
  | .hbm, ⟨37, _⟩ => ⟨S_, .f32⟩
  | .hbm, ⟨38, _⟩ => ⟨S131072, .f32⟩
  | .hbm, ⟨39, _⟩ => ⟨S_, .f32⟩
  | .hbm, ⟨40, _⟩ => ⟨S131072, .f32⟩
  | .hbm, ⟨41, _⟩ => ⟨S131072, .f32⟩
  | .hbm, ⟨42, _⟩ => ⟨S131072, .f32⟩
  | .hbm, ⟨43, _⟩ => ⟨S_, .f32⟩
  | .hbm, ⟨44, _⟩ => ⟨S131072x2048, .f32⟩
  | .hbm, ⟨45, _⟩ => ⟨S131072x2048, .i1⟩
  | .hbm, ⟨46, _⟩ => ⟨S131072x2048, .f32⟩
  | .hbm, ⟨47, _⟩ => ⟨S_, .f32⟩
  | .hbm, ⟨48, _⟩ => ⟨S131072, .f32⟩
  | .hbm, ⟨49, _⟩ => ⟨S131072x2047, .f32⟩
  | .hbm, ⟨50, _⟩ => ⟨S131072x2047, .f32⟩
  | .hbm, ⟨51, _⟩ => ⟨S131072x2047, .i1⟩
  | .hbm, ⟨52, _⟩ => ⟨S131072x2047, .f32⟩
  | .hbm, ⟨53, _⟩ => ⟨S_, .f32⟩
  | .hbm, ⟨54, _⟩ => ⟨S131072, .f32⟩
  | .hbm, ⟨55, _⟩ => ⟨S131072x1, .f32⟩
  | .hbm, ⟨56, _⟩ => ⟨S131072x1, .f32⟩
  | .hbm, ⟨57, _⟩ => ⟨S131072x1, .f32⟩
  | .hbm, ⟨58, _⟩ => ⟨S131072x1, .f32⟩
  | .hbm, ⟨59, _⟩ => ⟨S131072x4, .f32⟩
  | .hbm, ⟨60, _⟩ => ⟨S131072x4, .f32⟩
  | .hbm, ⟨61, _⟩ => ⟨S_, .f32⟩
  | .hbm, ⟨62, _⟩ => ⟨S131072, .f32⟩
  | _, _ => ⟨S131072x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  bcast_S4_S1x4_1 : S4.BroadcastsInDim S1x4 (![1] : Fin 1 → Fin S1x4.rank)
  bcast_S1x4_S131072x4_0_1 : S1x4.BroadcastsInDim S131072x4 (![0, 1] : Fin 2 → Fin S131072x4.rank)
  bcast_S_S131072x4 : S_.BroadcastsInDim S131072x4 (![] : Fin 0 → Fin S131072x4.rank)
  reducesTo_S131072x4_S131072_d1 : S131072x4.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x4_0_1 : S131072x1.BroadcastsInDim S131072x4 (![0, 1] : Fin 2 → Fin S131072x4.rank)
  reducesTo_S131072x2048_S131072_d1 : S131072x2048.ReducesTo [1] S131072
  bcast_S_S131072x2048 : S_.BroadcastsInDim S131072x2048 (![] : Fin 0 → Fin S131072x2048.rank)
  slices_S131072x2048_S131072x2047_0_1 : S131072x2048.Slices ![0, 1] S131072x2047
  slices_S131072x2048_S131072x2047_0_0 : S131072x2048.Slices ![0, 0] S131072x2047
  reducesTo_S131072x2047_S131072_d1 : S131072x2047.ReducesTo [1] S131072
  concatenates_S131072x1_S131072x1_S131072x1_S131072x1_S131072x4_d1 : Shape.Concatenates [S131072x1, S131072x1, S131072x1, S131072x1] S131072x4 1
  dot_S131072x2048_S4x2048_S131072x4_1_1_0_0_n_n_wf : DotDims.WF S131072x2048 S4x2048 S131072x4 [1] [1] [0] [0] [] []

variable [Facts₀]

def dot_S131072x2048_S4x2048_S131072x4_1_1_0_0_n_n : DotDims S131072x2048 S4x2048 S131072x4 where
  lhsContracting := [1]
  rhsContracting := [1]
  lhsNonContracting := [0]
  rhsNonContracting := [0]
  lhsBatch := []
  rhsBatch := []
  wf := dot_S131072x2048_S4x2048_S131072x4_1_1_0_0_n_n_wf

class Facts : Prop extends Facts₀ where

variable [Facts]
-- ==== Proof.RowSpec.lean ====
/-
  One row of the result, as a function of the row's data.

  A row is a vector x of 2048 entries; with it come the four weight vectors W e (one per expert e), the four biases b e and
  the row's four uniform samples u e. The four routing weights are the softmax, over e, of the scores

      s e = (sum over k of x k * W e k) + b e + g (u e),     g u = - log (- log (min hi (max lo u))),

  taken in its stable form: with M the largest score, route e = exp (s e - M) / (sum over e' of exp (s e' - M)). They weigh four
  statistics of the row: its sum; its largest entry divided by (its sum + lo); the number of entries different from 0; and the
  number of positions k >= 1 whose entry differs from the entry before it. The result is the weighted sum of the four.

  Everything is over the extended reals, the constants lo and hi being the exact values of their binary words, and the
  largest entry a fold of max that starts from the value of the word of minus infinity.

  The last statistic can also be counted around the circle: compare every entry with its cyclic predecessor (entry 0 with entry
  2047) and take the one comparison at position 0 away again. A comparison's tick is 0 or 1, a real number, so taking it away
  from a sum that contains it leaves the rest of the sum: that is the one place where a term is cancelled, and it is cancelled
  against itself.
-/
import Idealize.ShloMosaic.PureOps.Ideal
import Idealize.ShloMosaic.PureOps.Ideal.Laws
import Mathlib.Data.Finset.Fold
import Mathlib.Data.EReal.Operations

noncomputable section

namespace Cert.RowSpec

open Idealize.ShloMosaic

/-- The lower clip bound and the small addend of the second statistic: the value of one binary word (near 1e-6). -/
abbrev lo : EReal := Ideal.ofBits .f32 0x358637BD#32
/-- The upper clip bound: the value of its binary word (near 1 - 1e-6). -/
abbrev hi : EReal := Ideal.ofBits .f32 0x3F7FFFEF#32
/-- Where a fold of max starts: the value of the word of minus infinity. -/
abbrev start : EReal := Ideal.ofBits .f32 0xFF800000#32

/-- The tick of one comparison: 1 where the proposition holds, 0 where it does not. -/
def tick (p : Prop) [Decidable p] : EReal := if p then 1 else 0

/-- A tick is a real number. -/
theorem tick_eq_coe (p : Prop) [Decidable p] : tick p = (((if p then 1 else 0 : ℝ)) : EReal) := by
  unfold tick; split <;> simp

/-- The score's first part: the row against expert e's weights, plus the bias. -/
def logit (x : Fin 2048 → EReal) (W : Fin 4 → Fin 2048 → EReal) (b : Fin 4 → EReal) (e : Fin 4) : EReal :=
  (∑ k : Fin 2048, x k * W e k) + b e

/-- The noise of a uniform sample, the sample first clipped into [lo, hi]. -/
def noise (u : EReal) : EReal := -Ideal.log (-Ideal.log (min hi (max lo u)))

/-- The score of expert e. -/
def score (x : Fin 2048 → EReal) (W : Fin 4 → Fin 2048 → EReal) (b u : Fin 4 → EReal) (e : Fin 4) : EReal :=
  logit x W b e + noise (u e)

/-- The largest of finitely many values, as a fold from start. -/
def largest {n : ℕ} (s : Fin n → EReal) : EReal := (Finset.univ : Finset (Fin n)).fold max start s

/-- The routing weight of expert e: the softmax of the scores, in its stable form. -/
def route (s : Fin 4 → EReal) (e : Fin 4) : EReal :=
  Ideal.div (Ideal.exp (s e - largest s)) (∑ k : Fin 4, Ideal.exp (s k - largest s))

/-- The row's sum. -/
def total (x : Fin 2048 → EReal) : EReal := ∑ k : Fin 2048, x k

/-- The row's largest entry over (its sum + lo). -/
def peak (x : Fin 2048 → EReal) : EReal := Ideal.div (largest x) (total x + lo)

/-- The number of entries different from 0. -/
def nonzeros (x : Fin 2048 → EReal) : EReal := ∑ k : Fin 2048, tick (x k ≠ 0)

/-- The number of positions k >= 1 whose entry differs from the one before it. -/
def changes (x : Fin 2048 → EReal) : EReal := ∑ k : Fin 2047, tick (x k.succ ≠ x k.castSucc)

/-- The row's result: the four statistics weighed by the four routing weights. -/
def value (x : Fin 2048 → EReal) (W : Fin 4 → Fin 2048 → EReal) (b u : Fin 4 → EReal) : EReal :=
  route (score x W b u) 0 * total x + route (score x W b u) 1 * peak x + route (score x W b u) 2 * nonzeros x
    + route (score x W b u) 3 * changes x

/-- The cyclic predecessor of a position: position 0's is position 2047. -/
def before (c : Fin 2048) : Fin 2048 := ⟨(c.val + 2047) % 2048, Nat.mod_lt _ (by norm_num)⟩

theorem before_succ (k : Fin 2047) : before k.succ = k.castSucc := by
  apply Fin.ext
  show (k.val + 1 + 2047) % 2048 = k.val
  have := k.isLt
  omega

/-- Counting around the circle and taking position 0's comparison away again counts the positions k >= 1. -/
theorem circle_tally (x : Fin 2048 → EReal) :
    (∑ c : Fin 2048, tick (x c ≠ x (before c))) - tick (x 0 ≠ x (before 0)) = changes x := by
  rw [Fin.sum_univ_succ, tick_eq_coe (x 0 ≠ x (before 0)), EReal.add_sub_cancel_left]
  unfold changes
  exact Finset.sum_congr rfl fun k _ => by rw [before_succ]

/-- Zero less a value is its negative. -/
theorem zero_sub' (a : EReal) : (0 : EReal) - a = -a := zero_sub a

/-- The four weighted statistics summed over the experts, from 0, is the row's value. -/
theorem sum_four (r c : Fin 4 → EReal) :
    (0 : EReal) + ∑ e : Fin 4, r e * c e = r 0 * c 0 + r 1 * c 1 + r 2 * c 2 + r 3 * c 3 := by
  rw [zero_add, Fin.sum_univ_four]

end Cert.RowSpec

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.KernelStats.lean ====
/-
  The three plain statistics of a row, as the kernel computes them on a block of 512 rows: at row r of the block the sum over
  the second axis is the sum of the row's 2048 entries, the count of entries different from 0 is the sum of the comparisons'
  counts (a comparison's one-bit word, widened and read as a signed integer, is 0 or 1), and the largest entry over
  (sum + lo) is the fold of max over the row divided by that sum.
-/
import proofs.«106794_j32100585571071_2_alg».proof.Proof.Gen.KernelIdeal.Skeleton
import proofs.«106794_j32100585571071_2_alg».proof.Proof.RowSpec
import proofs.«106794_j32100585571071_2_alg».proof.Proof.LibRowOps
import Idealize.ShloMosaic.Lib.ValueIdx
import Idealize.ShloMosaic.PureOps.Ideal.Laws

noncomputable section

namespace Cert.KernelIdeal.Rows

open Cert.KernelIdeal Cert.KernelIdeal.Gen Idealize.ShloMosaic Idealize.ShloMosaic.ValueIdx Cert.RowSpec

/-- The word of "a differs from b", widened to 32 bits and read as a signed integer, is the comparison's tick. -/
theorem signed_word_tick (a b : EReal) :
    (((((Ideal.cmp .one a b).setWidth 32).toInt : ℤ) : ℝ) : EReal) = tick (a ≠ b) := by
  have h1 : ((BitVec.ofBool true).setWidth 32).toInt = 1 := by decide
  have h0 : ((BitVec.ofBool false).setWidth 32).toInt = 0 := by decide
  unfold Ideal.cmp tick
  by_cases h : a ≠ b
  · rw [if_pos h, decide_eq_true h, h1]; norm_num
  · rw [if_neg h, decide_eq_false h, h0]; norm_num

/-- Row r's sum. -/
theorem total_apply (x0 : Vec Ideal S512x2048 .f32) (r : Fin 512) :
    k0_pay3 x0 (ix1 r) = total fun k => x0 (ix2 r k) := by
  unfold k0_pay3
  exact RowOps.rowSum_apply x0 _ reduces_S512x2048_S512 (.inl rfl) rfl r

/-- Row r's number of entries different from 0. -/
theorem nonzeros_apply (x0 : Vec Ideal S512x2048 .f32) (r : Fin 512) :
    k0_pay5 x0 (ix1 r) = nonzeros fun k => x0 (ix2 r k) := by
  unfold k0_pay5
  refine (RowOps.rowSum_apply _ _ reduces_S512x2048_S512 (.inl rfl) rfl r).trans ?_
  unfold nonzeros
  refine Finset.sum_congr rfl fun k _ => ?_
  refine Eq.trans ?_ (signed_word_tick (x0 (ix2 r k)) 0)
  show (((((Ideal.cmp .one (x0 (ix2 r k)) (Ideal.ofBits .f32 0x00000000#32)).setWidth 32).toInt : ℤ) : ℝ) : EReal) = _
  rw [Ideal.ofBits_zero_f32]

/-- Row r's largest entry over (its sum + lo). -/
theorem peak_apply (x0 : Vec Ideal S512x2048 .f32) (r : Fin 512) :
    k0_pay4 x0 (ix1 r) = peak fun k => x0 (ix2 r k) := by
  unfold k0_pay4
  dsimp only
  exact congrArg₂ Ideal.div (RowOps.rowMax_apply x0 _ reduces_S512x2048_S512 (.inl rfl) rfl r)
    (congrArg (· + Ideal.ofBits .f32 0x358637BD#32) (total_apply x0 r))

end Cert.KernelIdeal.Rows

end
-- ==== Proof.LibColumns.lean ====
/-
  A single column of a matrix, read at an index: an [a, 1] column cast to a length-a vector reads the column's entry of the
  row, and column c of an [a, b] matrix, cut out as an [a, 1] column and cast to a vector, reads the matrix at (row, c).
-/
import Idealize.ShloMosaic.Lib.Pipeline.Value
import Idealize.ShloMosaic.Lib.ValueIdx
import Idealize.ShloMosaic.Lib.ValueLayout

namespace Idealize.ShloMosaic.Columns

open Idealize.ShloMosaic Idealize.ShloMosaic.ValueIdx

variable {α : Type}

/-- An [a, 1] column cast to an [a] vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Column c of an [a, b] matrix, cut out as [a, 1] and cast to [a], reads, at i, the matrix at (i, c). -/
theorem column_apply {a b : ℕ} (c : Fin b) (X : (⟨2, ![a, b]⟩ : Shape).Idx → α)
    (h : (⟨2, ![a, b]⟩ : Shape).Slices ![0, c.val] ⟨2, ![a, 1]⟩) (h' : (⟨2, ![a, 1]⟩ : Shape).ShapeCasts ⟨1, ![a]⟩) (i : Fin a) :
    shapeCast ⟨1, ![a]⟩ (extractStridedSlice ⟨2, ![a, 1]⟩ ![0, c.val] X h) h' (ix1 i) = X (ix2 i c) :=
  (shapeCast_a1_a_apply _ h' i).trans (slice2_axis1_apply c.val X h i (0 : Fin 1) c (by simp))

end Idealize.ShloMosaic.Columns
-- ==== Proof.KernelCombine.lean ====
/-
  How the kernel puts a row's result together on a block of 512 rows.

  The block rotated by one position along its rows holds, at (r, c), the entry at (r, c - 1), and at (r, 0) the entry at
  (r, 2047): the cyclic predecessor. Comparing the block with its rotation and reading each comparison's one-bit word as 0 or 1
  gives, at (r, c), the tick of "entry c differs from its cyclic predecessor". The row sum of these ticks less the tick at
  column 0 is the number of positions k >= 1 whose entry differs from the one before it (counting around the circle and taking
  position 0's comparison away again). The four routing weights are the four columns of a [512, 4] block; each multiplies its
  statistic, and the four products are added from the left.
-/
import proofs.«106794_j32100585571071_2_alg».proof.Proof.Gen.KernelIdeal.Skeleton
import proofs.«106794_j32100585571071_2_alg».proof.Proof.RowSpec
import proofs.«106794_j32100585571071_2_alg».proof.Proof.LibRowOps
import proofs.«106794_j32100585571071_2_alg».proof.Proof.LibColumns
import proofs.«106794_j32100585571071_2_alg».proof.Proof.KernelStats
import Idealize.ShloMosaic.Lib.ValueIdx
import Idealize.ShloMosaic.Lib.KernelVsHost

noncomputable section

namespace Cert.KernelIdeal.Rows

open Cert.KernelIdeal Cert.KernelIdeal.Gen Idealize.ShloMosaic Idealize.ShloMosaic.ValueIdx Cert.RowSpec

/-- The block compared with its rotation by one along the rows, each comparison's word read as 0 or 1. -/
def stepTicks (x0 : FVec Ideal S512x2048 .f32) : FVec Ideal S512x2048 .f32 :=
  sitofp .f32 (extui 32 (cmpf .one x0 (dynamicRotate 1 1#32 none x0 rotates_S512x2048_d1)) natLt_1_32)

/-- The rotation by one reads, at (r, c), the block at (r, cyclic predecessor of c). -/
theorem rotated_apply (x0 : FVec Ideal S512x2048 .f32) (r : Fin 512) (c : Fin 2048) :
    dynamicRotate 1 1#32 none x0 rotates_S512x2048_d1 (ix2 r c) = x0 (ix2 r (before c)) :=
  dynamicRotate_apply (1 : Fin 2) 1#32 x0 rotates_S512x2048_d1 (ix2 r c) (ix2 r (before c)) (by
    intro b
    match b with
    | ⟨0, _⟩ => rfl
    | ⟨1, _⟩ =>
      show (c.val + 2047) % 2048 = (c.val + 2048 - 1 % 2048) % 2048
      have := c.isLt
      omega)

/-- At (r, c): the tick of "entry c differs from its cyclic predecessor". -/
theorem stepTicks_apply (x0 : FVec Ideal S512x2048 .f32) (r : Fin 512) (c : Fin 2048) :
    stepTicks x0 (ix2 r c) = tick (x0 (ix2 r c) ≠ x0 (ix2 r (before c))) := by
  refine Eq.trans ?_ (signed_word_tick (x0 (ix2 r c)) (x0 (ix2 r (before c))))
  show (((((Ideal.cmp .one (x0 (ix2 r c)) (dynamicRotate 1 1#32 none x0 rotates_S512x2048_d1 (ix2 r c))).setWidth 32).toInt : ℤ) : ℝ) : EReal) = _
  rw [rotated_apply]

/-- Row r's number of positions k >= 1 whose entry differs from the one before it: the row sum of the ticks less the
    tick at column 0. -/
theorem changes_apply (x0 : FVec Ideal S512x2048 .f32) (r : Fin 512) :
    (subf (multiReduction .add [1] S512 (stepTicks x0) 0x00000000#32 reduces_S512x2048_S512 (.inl rfl) rfl)
        (shapeCast S512 (extractStridedSlice S512x1 ![0, 0] (stepTicks x0) slices_S512x2048_o0_0_S512x1) shapeCasts_S512x1_S512) :
        FVec Ideal S512 .f32) (ix1 r)
      = changes fun k => x0 (ix2 r k) := by
  refine Eq.trans (congrArg₂ (· - ·)
    ((RowOps.rowSum_apply (stepTicks x0) _ reduces_S512x2048_S512 (.inl rfl) rfl r).trans
      (Finset.sum_congr rfl fun k _ => stepTicks_apply x0 r k))
    ((Columns.column_apply (0 : Fin 2048) (stepTicks x0) slices_S512x2048_o0_0_S512x1 shapeCasts_S512x1_S512 r).trans
      (stepTicks_apply x0 r 0))) ?_
  exact circle_tally fun k => x0 (ix2 r k)

/-- Row r of the combined result: the four routing weights, the columns of the [512, 4] block, times the four statistics. -/
theorem combine_apply (x0 : FVec Ideal S512x2048 .f32) (v29 : FVec Ideal S512x4 .f32) (v30 v34 v39 : FVec Ideal S512 .f32)
    (r : Fin 512) :
    k0_pay1 x0 v29 v30 v34 v39 (ix1 r)
      = v29 (ix2 r 0) * v30 (ix1 r) + v29 (ix2 r 1) * v34 (ix1 r) + v29 (ix2 r 2) * v39 (ix1 r)
        + v29 (ix2 r 3) * changes fun k => x0 (ix2 r k) := by
  unfold k0_pay1
  dsimp only
  exact congrArg₂ (· + ·)
    (congrArg₂ (· + ·)
      (congrArg₂ (· + ·)
        (congrArg (· * v30 (ix1 r)) (Columns.column_apply (0 : Fin 4) v29 slices_S512x4_o0_0_S512x1 shapeCasts_S512x1_S512 r))
        (congrArg (· * v34 (ix1 r)) (Columns.column_apply (1 : Fin 4) v29 slices_S512x4_o0_1_S512x1 shapeCasts_S512x1_S512 r)))
      (congrArg (· * v39 (ix1 r)) (Columns.column_apply (2 : Fin 4) v29 slices_S512x4_o0_2_S512x1 shapeCasts_S512x1_S512 r)))
    (congrArg₂ (· * ·) (Columns.column_apply (3 : Fin 4) v29 slices_S512x4_o0_3_S512x1 shapeCasts_S512x1_S512 r)
      (changes_apply x0 r))

end Cert.KernelIdeal.Rows

end
-- ==== Proof.LibKeepdims.lean ====
/-
  A vector of row statistics carried to a matrix, read at an index: the cast of a length-`a` vector to an
  `[a, 1]` column reads its entry at the row, and the column broadcast to `[a, b]` reads the column's entry at
  the row whatever the lane. Also: a fold of `max` is above the value it starts from, so taking the maximum
  with that start once more changes nothing.
-/
import Idealize.ShloMosaic.Lib.Pipeline.Value
import Idealize.ShloMosaic.Lib.ValueIdx
import Mathlib.Data.Finset.Fold

namespace Idealize.ShloMosaic.Keepdims

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a row statistic spread over the lanes of its row. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A fold of `max` from `b` is at least `b`: the maximum of `b` and the fold is the fold. -/
theorem max_fold_max_self {ι β : Type} [LinearOrder β] (s : Finset ι) (b : β) (f : ι → β) :
    max b (s.fold max b f) = s.fold max b f :=
  max_eq_right ((Finset.le_fold_max (c := b)).2 (Or.inl le_rfl))

end Idealize.ShloMosaic.Keepdims
-- ==== Proof.KernelRoutes.lean ====
/-
  The four routing weights of a row, as the kernel computes them on a block of 512 rows.

  At (r, e) the product of the block with the four weight vectors, contracted over the 2048 positions into a zero accumulator,
  is the sum over k of x (r, k) * W (e, k) (rounding the factors to a shorter format changes nothing over the extended reals);
  the bias vector, viewed as one row and repeated down the 512 rows, adds b e. The sample's noise is
  0 - log (0 - log (min hi (max lo u))), and zero less a value is its negative. The row's largest score is the fold of max
  over the row's four scores; put back on the row's four lanes it is subtracted from each score before the exponential, the row
  sum of the exponentials is put back on the lanes the same way, and the quotient is the softmax in its stable form.
-/
import proofs.«106794_j32100585571071_2_alg».proof.Proof.Gen.KernelIdeal.Skeleton
import proofs.«106794_j32100585571071_2_alg».proof.Proof.RowSpec
import proofs.«106794_j32100585571071_2_alg».proof.Proof.LibRowOps
import proofs.«106794_j32100585571071_2_alg».proof.Proof.LibKeepdims
import Idealize.ShloMosaic.Lib.ValueIdx
import Idealize.ShloMosaic.Lib.ValueLayout
import Idealize.ShloMosaic.PureOps.Ideal.Laws

noncomputable section

namespace Cert.KernelIdeal.Rows

open Cert.KernelIdeal Cert.KernelIdeal.Gen Idealize.ShloMosaic Idealize.ShloMosaic.ValueIdx Cert.RowSpec

/-- The block against the weight vectors, plus the bias row repeated down the rows. -/
def logits (x0 : FVec Ideal S512x2048 .f32) (x1 : FVec Ideal S4x2048 .f32) (x2 : FVec Ideal S4 .f32) : FVec Ideal S512x4 .f32 :=
  addf (matmul dot_S512x2048_S4x2048_S512x4_1_1_0_0_n_n none (truncf .bf16 x0 bitsLt_bf16_f32) (truncf .bf16 x1 bitsLt_bf16_f32)
      (constant S512x4 .f32 0x00000000#32))
    (broadcastTo S512x4 (shapeCast S1x4 x2 shapeCasts_S4_S1x4) broadcasts_S1x4_S512x4)

/-- The noise of each sample of the block. -/
def noises (x3 : FVec Ideal S512x4 .f32) : FVec Ideal S512x4 .f32 :=
  subf (broadcast S512x4 (Scalar.ofBits .f32 0x00000000#32))
    (log (subf (broadcast S512x4 (Scalar.ofBits .f32 0x00000000#32))
      (log (minimumf (broadcast S512x4 (Scalar.ofBits .f32 0x3F7FFFEF#32))
        (maximumf (broadcast S512x4 (Scalar.ofBits .f32 0x358637BD#32)) x3)))))

/-- The scores of the block. -/
def scores (x0 : FVec Ideal S512x2048 .f32) (x1 : FVec Ideal S4x2048 .f32) (x2 : FVec Ideal S4 .f32) (x3 : FVec Ideal S512x4 .f32) :
    FVec Ideal S512x4 .f32 :=
  addf (logits x0 x1 x2) (noises x3)

/-- The exponentials of the scores less their row's largest. -/
def shiftedExp (s : FVec Ideal S512x4 .f32) : FVec Ideal S512x4 .f32 :=
  exp (subf s (broadcastTo S512x4 (shapeCast S512x1
    (multiReduction .maximumf [1] S512 s 0xFF800000#32 reduces_S512x4_S512 (.inl rfl) rfl) shapeCasts_S512_S512x1)
    broadcasts_S512x1_S512x4))

/-- The exponentials over their row sums. -/
def softmaxRows (s : FVec Ideal S512x4 .f32) : FVec Ideal S512x4 .f32 :=
  divf (shiftedExp s) (broadcastTo S512x4 (shapeCast S512x1
    (multiReduction .add [1] S512 (shiftedExp s) 0x00000000#32 reduces_S512x4_S512 (.inl rfl) rfl) shapeCasts_S512_S512x1)
    broadcasts_S512x1_S512x4)

/-- The routing weights the kernel computes are the softmax of the scores, row by row. -/
theorem routes_eq (x0 : FVec Ideal S512x2048 .f32) (x1 : FVec Ideal S4x2048 .f32) (x2 : FVec Ideal S4 .f32) (x3 : FVec Ideal S512x4 .f32) :
    k0_pay2 (F := Ideal) x0 x1 x2 x3 = softmaxRows (scores x0 x1 x2 x3) := rfl

/-! ## The contraction -/

theorem lhs_row (i : S512x4.Idx) (q : dot_S512x2048_S4x2048_S512x4_1_1_0_0_n_n.contr.Idx) :
    (dot_S512x2048_S4x2048_S512x4_1_1_0_0_n_n.lhsIdx i q 0).val = (i 0).val := by
  unfold DotDims.lhsIdx
  rw [dif_neg (show ¬(0 : Fin S512x2048.rank) ∈ dot_S512x2048_S4x2048_S512x4_1_1_0_0_n_n.lhsBatch by decide),
    dif_pos (show (0 : Fin S512x2048.rank) ∈ dot_S512x2048_S4x2048_S512x4_1_1_0_0_n_n.lhsNonContracting by decide)]
  rfl

theorem lhs_pos (i : S512x4.Idx) (q : dot_S512x2048_S4x2048_S512x4_1_1_0_0_n_n.contr.Idx) :
    (dot_S512x2048_S4x2048_S512x4_1_1_0_0_n_n.lhsIdx i q 1).val = (q ⟨0, by decide⟩).val :=
  dot_S512x2048_S4x2048_S512x4_1_1_0_0_n_n.lhsIdx_val_of_single rfl i q

theorem rhs_row (i : S512x4.Idx) (q : dot_S512x2048_S4x2048_S512x4_1_1_0_0_n_n.contr.Idx) :
    (dot_S512x2048_S4x2048_S512x4_1_1_0_0_n_n.rhsIdx i q 0).val = (i 1).val := by
  unfold DotDims.rhsIdx
  rw [dif_neg (show ¬(0 : Fin S4x2048.rank) ∈ dot_S512x2048_S4x2048_S512x4_1_1_0_0_n_n.rhsBatch by decide),
    dif_pos (show (0 : Fin S4x2048.rank) ∈ dot_S512x2048_S4x2048_S512x4_1_1_0_0_n_n.rhsNonContracting by decide)]
  rfl

theorem rhs_pos (i : S512x4.Idx) (q : dot_S512x2048_S4x2048_S512x4_1_1_0_0_n_n.contr.Idx) :
    (dot_S512x2048_S4x2048_S512x4_1_1_0_0_n_n.rhsIdx i q 1).val = (q ⟨0, by decide⟩).val :=
  dot_S512x2048_S4x2048_S512x4_1_1_0_0_n_n.rhsIdx_val_of_single rfl i q

/-- The contraction into a zero accumulator, at (r, e): the sum over the 2048 positions. -/
theorem contraction_apply (x0 : FVec Ideal S512x2048 .f32) (x1 : FVec Ideal S4x2048 .f32) (r : Fin 512) (e : Fin 4) :
    (matmul dot_S512x2048_S4x2048_S512x4_1_1_0_0_n_n none (truncf .bf16 x0 bitsLt_bf16_f32) (truncf .bf16 x1 bitsLt_bf16_f32)
      (constant S512x4 .f32 0x00000000#32) : FVec Ideal S512x4 .f32) (ix2 r e)
      = ∑ k : Fin 2048, x0 (ix2 r k) * x1 (ix2 e k) := by
  refine (Ideal.matmul_constant_zero_apply dot_S512x2048_S4x2048_S512x4_1_1_0_0_n_n none _ _ (ix2 r e)).trans ?_
  rw [← Equiv.sum_comp (ValueIdx.contrEquiv1 dot_S512x2048_S4x2048_S512x4_1_1_0_0_n_n 2048 rfl rfl).symm]
  refine Finset.sum_congr rfl fun k _ => ?_
  have hk := ValueIdx.contrEquiv1_symm_val dot_S512x2048_S4x2048_S512x4_1_1_0_0_n_n 2048 rfl rfl k
  have el : dot_S512x2048_S4x2048_S512x4_1_1_0_0_n_n.lhsIdx (ix2 r e)
      ((ValueIdx.contrEquiv1 dot_S512x2048_S4x2048_S512x4_1_1_0_0_n_n 2048 rfl rfl).symm k) = ix2 r k :=
    funext fun a => Fin.ext (by
      match a with
      | ⟨0, _⟩ => exact lhs_row _ _
      | ⟨1, _⟩ => exact (lhs_pos _ _).trans hk)
  have er : dot_S512x2048_S4x2048_S512x4_1_1_0_0_n_n.rhsIdx (ix2 r e)
      ((ValueIdx.contrEquiv1 dot_S512x2048_S4x2048_S512x4_1_1_0_0_n_n 2048 rfl rfl).symm k) = ix2 e k :=
    funext fun a => Fin.ext (by
      match a with
      | ⟨0, _⟩ => exact rhs_row _ _
      | ⟨1, _⟩ => exact (rhs_pos _ _).trans hk)
  rw [el, er]
  rfl

/-- The bias vector as one row, repeated down the rows, at (r, e): the bias of e. -/
theorem bias_apply (x2 : FVec Ideal S4 .f32) (r : Fin 512) (e : Fin 4) :
    (broadcastTo S512x4 (shapeCast S1x4 x2 shapeCasts_S4_S1x4) broadcasts_S1x4_S512x4 : FVec Ideal S512x4 .f32) (ix2 r e)
      = x2 (ix1 e) :=
  (broadcastTo_1b_ab_apply _ broadcasts_S1x4_S512x4 r e).trans (shapeCast_a_1a_apply x2 shapeCasts_S4_S1x4 (0 : Fin 1) e)

theorem logits_apply (x0 : FVec Ideal S512x2048 .f32) (x1 : FVec Ideal S4x2048 .f32) (x2 : FVec Ideal S4 .f32) (r : Fin 512) (e : Fin 4) :
    logits x0 x1 x2 (ix2 r e) = logit (fun k => x0 (ix2 r k)) (fun e k => x1 (ix2 e k)) (fun e => x2 (ix1 e)) e :=
  congrArg₂ (· + ·) (contraction_apply x0 x1 r e) (bias_apply x2 r e)

theorem noises_apply (x3 : FVec Ideal S512x4 .f32) (r : Fin 512) (e : Fin 4) :
    noises x3 (ix2 r e) = noise (x3 (ix2 r e)) := by
  show Ideal.ofBits .f32 0x00000000#32 - Ideal.log (Ideal.ofBits .f32 0x00000000#32
    - Ideal.log (min (Ideal.ofBits .f32 0x3F7FFFEF#32) (max (Ideal.ofBits .f32 0x358637BD#32) (x3 (ix2 r e))))) = _
  rw [Ideal.ofBits_zero_f32, zero_sub, zero_sub]
  rfl

theorem scores_apply (x0 : FVec Ideal S512x2048 .f32) (x1 : FVec Ideal S4x2048 .f32) (x2 : FVec Ideal S4 .f32) (x3 : FVec Ideal S512x4 .f32)
    (r : Fin 512) (e : Fin 4) :
    scores x0 x1 x2 x3 (ix2 r e)
      = score (fun k => x0 (ix2 r k)) (fun e k => x1 (ix2 e k)) (fun e => x2 (ix1 e)) (fun e => x3 (ix2 r e)) e :=
  congrArg₂ (· + ·) (logits_apply x0 x1 x2 r e) (noises_apply x3 r e)

/-! ## The softmax of a row -/

/-- A row statistic put back on the row's four lanes. -/
theorem lanes_apply (v : FVec Ideal S512 .f32) (r : Fin 512) (e : Fin 4) :
    (broadcastTo S512x4 (shapeCast S512x1 v shapeCasts_S512_S512x1) broadcasts_S512x1_S512x4 : FVec Ideal S512x4 .f32) (ix2 r e)
      = v (ix1 r) :=
  Keepdims.column_apply v shapeCasts_S512_S512x1 broadcasts_S512x1_S512x4 r e

theorem shiftedExp_apply (s : FVec Ideal S512x4 .f32) (r : Fin 512) (e : Fin 4) :
    shiftedExp s (ix2 r e) = Ideal.exp (s (ix2 r e) - largest fun k => s (ix2 r k)) := by
  show Ideal.exp (s (ix2 r e) - _) = _
  rw [lanes_apply, RowOps.rowMax_apply s 0xFF800000#32 reduces_S512x4_S512 (.inl rfl) rfl r]
  rfl

theorem softmaxRows_apply (s : FVec Ideal S512x4 .f32) (r : Fin 512) (e : Fin 4) :
    softmaxRows s (ix2 r e) = route (fun k => s (ix2 r k)) e := by
  show Ideal.div (shiftedExp s (ix2 r e)) _ = _
  rw [lanes_apply, RowOps.rowSum_apply (shiftedExp s) 0x00000000#32 reduces_S512x4_S512 (.inl rfl) rfl r, shiftedExp_apply]
  unfold route
  exact congrArg (Ideal.div _) (Finset.sum_congr rfl fun k _ => shiftedExp_apply s r k)

/-- The routing weight of expert e in row r of the block. -/
theorem routes_apply (x0 : FVec Ideal S512x2048 .f32) (x1 : FVec Ideal S4x2048 .f32) (x2 : FVec Ideal S4 .f32) (x3 : FVec Ideal S512x4 .f32)
    (r : Fin 512) (e : Fin 4) :
    k0_pay2 (F := Ideal) x0 x1 x2 x3 (ix2 r e)
      = route (score (fun k => x0 (ix2 r k)) (fun e k => x1 (ix2 e k)) (fun e => x2 (ix1 e)) (fun e => x3 (ix2 r e))) e := by
  rw [routes_eq, softmaxRows_apply]
  exact congrArg (fun s => route s e) (funext fun k => scores_apply x0 x1 x2 x3 r k)

end Cert.KernelIdeal.Rows

end
-- ==== Proof.KernelBlock.lean ====
/-
  What the kernel stores for row r of a block: the row's value, of the block's row r, the four weight vectors, the four biases
  and row r of the block of samples.
-/
import proofs.«106794_j32100585571071_2_alg».proof.Proof.Gen.KernelIdeal.Skeleton
import proofs.«106794_j32100585571071_2_alg».proof.Proof.RowSpec
import proofs.«106794_j32100585571071_2_alg».proof.Proof.KernelStats
import proofs.«106794_j32100585571071_2_alg».proof.Proof.KernelCombine
import proofs.«106794_j32100585571071_2_alg».proof.Proof.KernelRoutes

noncomputable section

namespace Cert.KernelIdeal.Rows

open Cert.KernelIdeal Cert.KernelIdeal.Gen Idealize.ShloMosaic Idealize.ShloMosaic.ValueIdx Cert.RowSpec

theorem block_apply (x0 : FVec Ideal S512x2048 .f32) (x1 : FVec Ideal S4x2048 .f32) (x2 : FVec Ideal S4 .f32)
    (x3 : FVec Ideal S512x4 .f32) (r : Fin 512) :
    k0_pay1 (F := Ideal) x0 (k0_pay2 x0 x1 x2 x3) (k0_pay3 x0) (k0_pay4 x0) (k0_pay5 x0) (ix1 r)
      = value (fun k => x0 (ix2 r k)) (fun e k => x1 (ix2 e k)) (fun e => x2 (ix1 e)) (fun e => x3 (ix2 r e)) := by
  rw [combine_apply, routes_apply, routes_apply, routes_apply, routes_apply, total_apply, peak_apply, nonzeros_apply]
  rfl

end Cert.KernelIdeal.Rows

end
-- ==== Proof.Blocks.lean ====
/-
  From the blocks to the whole result.

  The grid has 256 points; point t handles rows 512 t to 512 t + 511. Its block of the first argument is rows 512 t + r of
  the whole matrix, all 2048 columns; its block of the samples is the same rows of the [131072, 4] matrix; the weight matrix
  and the bias vector come whole at every point. What the point stores for row r of its output block is the row's value of
  those data, so what it writes back is block t of one function of the four argument arrays: at row i, the value of row i.
  Row i lies in the block of point i / 512, so the blocks cover the result and the result is that function.
-/
import proofs.«106794_j32100585571071_2_alg».proof.Proof.Gen.KernelIdeal.Value
import proofs.«106794_j32100585571071_2_alg».proof.Proof.RowSpec
import proofs.«106794_j32100585571071_2_alg».proof.Proof.KernelBlock
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx Cert.RowSpec
open Idealize.ShloMosaic.Pipeline (Dat)

variable (m : (ℓ : Loc nD τ sig) → Buf (Elt Ideal) ℓ) (ρ : Dev nD → PrngReg)

/-- The row an index of the result names. -/
def rowOf (i : S131072.Idx) : Fin 131072 := ⟨(i 0).val, (i 0).isLt⟩

/-- The result as one function of the four argument arrays: at row i, the value of row i. -/
def result (a0 : S131072x2048.Idx → EReal) (a1 : S4x2048.Idx → EReal) (a2 : S4.Idx → EReal) (a3 : S131072x4.Idx → EReal) :
    S131072.Idx → EReal :=
  fun i => value (fun k => a0 (ix2 (rowOf i) k)) (fun e k => a1 (ix2 e k)) (fun e => a2 (ix1 e)) (fun e => a3 (ix2 (rowOf i) e))

theorem zero1 : (![0] : Fin 1 → Nat) = fun _ => 0 := funext fun a => by fin_cases a <;> rfl
theorem zero2 : (![0, 0] : Fin 2 → Nat) = fun _ => 0 := funext fun a => by fin_cases a <;> rfl

/-- Where each window's block sits at point t: the row blocks move with t, the rest stay at 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 ∧ win0_4.index t (0 : Fin 1) = t.val :=
  (by decide +kernel : ∀ t : Fin grid0.N, _)

/-- Row 512 t + r of the whole. -/
def rowAt (t : Fin cfg0.N) (r : Fin 512) : Fin 131072 :=
  ⟨t.val * 512 + r.val, by have ht : t.val < 256 := t.isLt; have := r.isLt; omega⟩

theorem rows_block (c : Dev nD) (t : Fin cfg0.N) (r : Fin 512) (k : Fin 2048) :
    iblk m c 0 t (ix2 r k) = V m c main_arg0 (ix2 (rowAt t r) k) := by
  show V m c main_arg0 (((cfg0.win 0).blk t).view.emb (ix2 r k)) = _
  obtain ⟨e0, e1, -⟩ := index_facts t
  refine congrArg (V m c main_arg0) (funext fun a => Fin.ext ?_)
  match a with
  | ⟨0, _⟩ => show win0_0.index t (0 : Fin 2) * 512 + 1 * r.val = t.val * 512 + r.val; rw [e0]; omega
  | ⟨1, _⟩ => show win0_0.index t (1 : Fin 2) * 2048 + 1 * k.val = k.val; rw [e1]; omega

theorem weights_block (c : Dev nD) (t : Fin cfg0.N) (e : Fin 4) (k : Fin 2048) :
    iblk m c 1 t (ix2 e k) = V m c main_arg1 (ix2 e k) := by
  show V m c main_arg1 (((cfg0.win 1).blk t).view.emb (ix2 e k)) = _
  obtain ⟨-, -, e2, e3, -⟩ := index_facts t
  refine congrArg (V m c main_arg1) (funext fun a => Fin.ext ?_)
  match a with
  | ⟨0, _⟩ => show win0_1.index t (0 : Fin 2) * 4 + 1 * e.val = e.val; rw [e2]; omega
  | ⟨1, _⟩ => show win0_1.index t (1 : Fin 2) * 2048 + 1 * k.val = k.val; rw [e3]; omega

theorem bias_block (c : Dev nD) (t : Fin cfg0.N) (e : Fin 4) :
    iblk m c 2 t (ix1 e) = V m c main_arg2 (ix1 e) := by
  show V m c main_arg2 (((cfg0.win 2).blk t).view.emb (ix1 e)) = _
  obtain ⟨-, -, -, -, e4, -⟩ := index_facts t
  refine congrArg (V m c main_arg2) (funext fun a => Fin.ext ?_)
  match a with
  | ⟨0, _⟩ => show win0_2.index t (0 : Fin 1) * 4 + 1 * e.val = e.val; rw [e4]; omega

theorem samples_block (c : Dev nD) (t : Fin cfg0.N) (r : Fin 512) (e : Fin 4) :
    iblk m c 3 t (ix2 r e) = V m c main_arg3 (ix2 (rowAt t r) e) := by
  show V m c main_arg3 (((cfg0.win 3).blk t).view.emb (ix2 r e)) = _
  obtain ⟨-, -, -, -, -, e5, e6, -⟩ := index_facts t
  refine congrArg (V m c main_arg3) (funext fun a => Fin.ext ?_)
  match a with
  | ⟨0, _⟩ => show win0_3.index t (0 : Fin 2) * 512 + 1 * r.val = t.val * 512 + r.val; rw [e5]; omega
  | ⟨1, _⟩ => show win0_3.index t (1 : Fin 2) * 4 + 1 * e.val = e.val; rw [e6]; omega

/-- Row r of point t's output block is row 512 t + r of the result. -/
theorem out_row (t : Fin cfg0.N) (r : Fin 512) :
    rowOf (((cfg0.win 4).blk t).view.emb (ix1 r)) = rowAt t r := by
  obtain ⟨-, -, -, -, -, -, -, e7⟩ := index_facts t
  apply Fin.ext
  show win0_4.index t (0 : Fin 1) * 512 + 1 * r.val = t.val * 512 + r.val
  rw [e7]; omega

/-- What point t writes back is block t of the result function of the argument arrays as the region finds them. -/
theorem flushed_eq (c : Dev nD) (t : Fin cfg0.N) :
    (dats m 0 c).flushed 4 t = ((cfg0.win 4).blk t).view.read (Elt Ideal)
      (result (V m c main_arg0) (V m c main_arg1) (V m c main_arg2) (V m c main_arg3)) := by
  rw [Value.flushed4]
  unfold out0_4
  rw [View.canon_unit_zero zero1]
  simp only [View.ld_unit_zero (S := S512x2048) zero2, View.ld_unit_zero (S := S4x2048) zero2,
    View.ld_unit_zero (S := S4) zero1, View.ld_unit_zero (S := S512x4) zero2]
  suffices h : ∀ r : Fin 512,
      k0_pay1 (F := Ideal) (iblk m c 0 t) (k0_pay2 (iblk m c 0 t) (iblk m c 1 t) (iblk m c 2 t) (iblk m c 3 t))
          (k0_pay3 (iblk m c 0 t)) (k0_pay4 (iblk m c 0 t)) (k0_pay5 (iblk m c 0 t)) (ix1 r)
        = result (V m c main_arg0) (V m c main_arg1) (V m c main_arg2) (V m c main_arg3)
            (((cfg0.win 4).blk t).view.emb (ix1 r)) by
    funext y
    rw [eq_ix1 (n := 512) y]
    exact h (y 0)
  intro r
  refine (Rows.block_apply (iblk m c 0 t) (iblk m c 1 t) (iblk m c 2 t) (iblk m c 3 t) r).trans ?_
  unfold result
  rw [out_row]
  simp only [rows_block, weights_block, bias_block, samples_block]

/-- An index of the result is in point t's block iff its row is among the block's 512. -/
theorem mem_blk (t : Fin cfg0.N) (i : S131072.Idx) :
    i ∈ ((cfg0.win 4).blk t).view.set ↔ ∀ a : Fin 1, win0_4.index t a * S512.size a ≤ (i a).val
      ∧ (i a).val < win0_4.index t a * S512.size a + S512.size a := by
  show i ∈ ((View.whole main_v0).slice (win0_4.rect t)).set ↔ _
  rw [View.set_slice_whole, Rect.mem_set_unit]
  exact Iff.rfl

/-- Every row of the result is in the block of the point row / 512, which writes back. -/
theorem cover (i : S131072.Idx) :
    ∃ t : Fin cfg0.N, (cfg0.win 4).flush t = true ∧ i ∈ ((cfg0.win 4).blk t).view.set := by
  have hi : (i 0).val < 131072 := (i 0).isLt
  refine ⟨⟨(i 0).val / 512, by show (i 0).val / 512 < 256; omega⟩, flush0_4 _, ?_⟩
  rw [mem_blk]
  intro a
  obtain ⟨-, -, -, -, -, -, -, e7⟩ := index_facts ⟨(i 0).val / 512, by show (i 0).val / 512 < 256; omega⟩
  match a with
  | ⟨0, _⟩ =>
    show win0_4.index _ (0 : Fin 1) * 512 ≤ (i 0).val ∧ (i 0).val < win0_4.index _ (0 : Fin 1) * 512 + 512
    rw [e7]
    show (i 0).val / 512 * 512 ≤ (i 0).val ∧ (i 0).val < (i 0).val / 512 * 512 + 512
    omega

/-- The result array after the run is the result function of the argument arrays. -/
theorem final (c : Dev nD) :
    (dats m 0 c).arrAt 4 cfg0.N = result (m ((c : Thread nD τ).loc main_arg0)) (m ((c : Thread nD τ).loc main_arg1))
      (m ((c : Thread nD τ).loc main_arg2)) (m ((c : Thread nD τ).loc main_arg3)) :=
  (dats m 0 c).arrAt_eq_of_cover 4 _ (fun t _ => flushed_eq m c t) cover

/-- The kernel's run: the result array ends at the result function of the arguments, the arguments unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0))
        (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefRun.lean ====
/-
  The reference's run, read back.

  The reference program is a straight line of 59 array operations. Every weakly fair execution of it terminates, and each
  buffer then holds what the operations, applied in order, leave in it. The first 55 operations compute the four routing
  weights of every row and, as four [131072, 1] columns, the four statistics of every row; the last four join the columns into a
  [131072, 4] array, multiply it by the routing weights, and sum over the four. So the result is the last stage's value of the
  four arguments, each earlier stage's value standing where a later operation reads it.
-/
import proofs.«106794_j32100585571071_2_alg».proof.Proof.Gen.ReferenceIdeal
import proofs.«106794_j32100585571071_2_alg».proof.Proof.RefStages
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The first 55 operations: up to the four columns of row statistics. -/
abbrev pre : List (HloOp τ sig (Elt F)) :=
  [ binary main_arg0 main_arg1 main_v0 ((fun l r => Host.dotGeneral dot_S131072x2048_S4x2048_S131072x4_1_1_0_0_n_n none l r) : (⟨S131072x2048, .f32⟩ : BufTy).Contents (Elt F) → (⟨S4x2048, .f32⟩ : BufTy).Contents (Elt F) → (⟨S131072x4, .f32⟩ : BufTy).Contents (Elt F)),
    unary main_arg2 main_v1 (broadcastInDim S1x4 ![1] bcast_S4_S1x4_1 : (⟨S4, .f32⟩ : BufTy).Contents (Elt F) → (⟨S1x4, .f32⟩ : BufTy).Contents (Elt F)),
    unary main_v1 main_v2 (broadcastInDim S131072x4 ![0, 1] bcast_S1x4_S131072x4_0_1 : (⟨S1x4, .f32⟩ : BufTy).Contents (Elt F) → (⟨S131072x4, .f32⟩ : BufTy).Contents (Elt F)),
    binary main_v0 main_v2 main_v3 (addf : (⟨S131072x4, .f32⟩ : BufTy).Contents (Elt F) → (⟨S131072x4, .f32⟩ : BufTy).Contents (Elt F) → (⟨S131072x4, .f32⟩ : BufTy).Contents (Elt F)),
    nullary main_cst (constant S_ .f32 0x358637BD#32),
    nullary main_cst_0 (constant S_ .f32 0x3F7FFFEF#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S131072x4, .f32⟩) main_call0_v1) (broadcastInDim S131072x4 ![] bcast_S_S131072x4),
    TRef.binary (TRef.of (T := ⟨S131072x4, .f32⟩) main_call0_v1) (TRef.of (T := ⟨S131072x4, .f32⟩) main_arg3) (TRef.of (T := ⟨S131072x4, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S131072x4, .f32⟩) main_call0_v4) (broadcastInDim S131072x4 ![] bcast_S_S131072x4),
    TRef.binary (TRef.of (T := ⟨S131072x4, .f32⟩) main_call0_v4) (TRef.of (T := ⟨S131072x4, .f32⟩) main_call0_v2) (TRef.of (T := ⟨S131072x4, .f32⟩) main_v4) minimumf,
    unary main_v4 main_v5 (Host.log : (⟨S131072x4, .f32⟩ : BufTy).Contents (Elt F) → (⟨S131072x4, .f32⟩ : BufTy).Contents (Elt F)),
    unary main_v5 main_v6 (Host.negf : (⟨S131072x4, .f32⟩ : BufTy).Contents (Elt F) → (⟨S131072x4, .f32⟩ : BufTy).Contents (Elt F)),
    unary main_v6 main_v7 (Host.log : (⟨S131072x4, .f32⟩ : BufTy).Contents (Elt F) → (⟨S131072x4, .f32⟩ : BufTy).Contents (Elt F)),
    unary main_v7 main_v8 (Host.negf : (⟨S131072x4, .f32⟩ : BufTy).Contents (Elt F) → (⟨S131072x4, .f32⟩ : BufTy).Contents (Elt F)),
    binary main_v3 main_v8 main_v9 (addf : (⟨S131072x4, .f32⟩ : BufTy).Contents (Elt F) → (⟨S131072x4, .f32⟩ : BufTy).Contents (Elt F) → (⟨S131072x4, .f32⟩ : BufTy).Contents (Elt F)),
    nullary main_cst_1 (constant S_ .f32 0xFF800000#32),
    binary main_v9 main_cst_1 main_v10 ((fun x v => Host.reduce FloatOps.maximumf x v reducesTo_S131072x4_S131072_d1 h_S_) : (⟨S131072x4, .f32⟩ : BufTy).Contents (Elt F) → (⟨S_, .f32⟩ : BufTy).Contents (Elt F) → (⟨S131072, .f32⟩ : BufTy).Contents (Elt F)),
    nullary main_cst_2 (constant S_ .f32 0xFF800000#32),
    unary main_cst_2 main_v11 (broadcastInDim S131072 ![] bcast_S_S131072 : (⟨S_, .f32⟩ : BufTy).Contents (Elt F) → (⟨S131072, .f32⟩ : BufTy).Contents (Elt F)),
    binary main_v11 main_v10 main_v12 (maximumf : (⟨S131072, .f32⟩ : BufTy).Contents (Elt F) → (⟨S131072, .f32⟩ : BufTy).Contents (Elt F) → (⟨S131072, .f32⟩ : BufTy).Contents (Elt F)),
    unary main_v12 main_v13 (broadcastInDim S131072x1 ![0] bcast_S131072_S131072x1_0 : (⟨S131072, .f32⟩ : BufTy).Contents (Elt F) → (⟨S131072x1, .f32⟩ : BufTy).Contents (Elt F)),
    unary main_v13 main_v14 (broadcastInDim S131072x4 ![0, 1] bcast_S131072x1_S131072x4_0_1 : (⟨S131072x1, .f32⟩ : BufTy).Contents (Elt F) → (⟨S131072x4, .f32⟩ : BufTy).Contents (Elt F)),
    binary main_v9 main_v14 main_v15 (subf : (⟨S131072x4, .f32⟩ : BufTy).Contents (Elt F) → (⟨S131072x4, .f32⟩ : BufTy).Contents (Elt F) → (⟨S131072x4, .f32⟩ : BufTy).Contents (Elt F)),
    unary main_v15 main_v16 (Host.exp : (⟨S131072x4, .f32⟩ : BufTy).Contents (Elt F) → (⟨S131072x4, .f32⟩ : BufTy).Contents (Elt F)),
    nullary main_cst_3 (constant S_ .f32 0x00000000#32),
    binary main_v16 main_cst_3 main_v17 ((fun x v => Host.reduceAdd x v reducesTo_S131072x4_S131072_d1 h_S_) : (⟨S131072x4, .f32⟩ : BufTy).Contents (Elt F) → (⟨S_, .f32⟩ : BufTy).Contents (Elt F) → (⟨S131072, .f32⟩ : BufTy).Contents (Elt F)),
    unary main_v17 main_v18 (broadcastInDim S131072x1 ![0] bcast_S131072_S131072x1_0 : (⟨S131072, .f32⟩ : BufTy).Contents (Elt F) → (⟨S131072x1, .f32⟩ : BufTy).Contents (Elt F)),
    unary main_v18 main_v19 (broadcastInDim S131072x4 ![0, 1] bcast_S131072x1_S131072x4_0_1 : (⟨S131072x1, .f32⟩ : BufTy).Contents (Elt F) → (⟨S131072x4, .f32⟩ : BufTy).Contents (Elt F)),
    binary main_v16 main_v19 main_v20 (Host.divf : (⟨S131072x4, .f32⟩ : BufTy).Contents (Elt F) → (⟨S131072x4, .f32⟩ : BufTy).Contents (Elt F) → (⟨S131072x4, .f32⟩ : BufTy).Contents (Elt F)),
    nullary main_cst_4 (constant S_ .f32 0x00000000#32),
    binary main_arg0 main_cst_4 main_v21 ((fun x v => Host.reduceAdd x v reducesTo_S131072x2048_S131072_d1 h_S_) : (⟨S131072x2048, .f32⟩ : BufTy).Contents (Elt F) → (⟨S_, .f32⟩ : BufTy).Contents (Elt F) → (⟨S131072, .f32⟩ : BufTy).Contents (Elt F)),
    nullary main_cst_5 (constant S_ .f32 0xFF800000#32),
    binary main_arg0 main_cst_5 main_v22 ((fun x v => Host.reduce FloatOps.maximumf x v reducesTo_S131072x2048_S131072_d1 h_S_) : (⟨S131072x2048, .f32⟩ : BufTy).Contents (Elt F) → (⟨S_, .f32⟩ : BufTy).Contents (Elt F) → (⟨S131072, .f32⟩ : BufTy).Contents (Elt F)),
    nullary main_cst_6 (constant S_ .f32 0x358637BD#32),
    unary main_cst_6 main_v23 (broadcastInDim S131072 ![] bcast_S_S131072 : (⟨S_, .f32⟩ : BufTy).Contents (Elt F) → (⟨S131072, .f32⟩ : BufTy).Contents (Elt F)),
    binary main_v21 main_v23 main_v24 (addf : (⟨S131072, .f32⟩ : BufTy).Contents (Elt F) → (⟨S131072, .f32⟩ : BufTy).Contents (Elt F) → (⟨S131072, .f32⟩ : BufTy).Contents (Elt F)),
    binary main_v22 main_v24 main_v25 (Host.divf : (⟨S131072, .f32⟩ : BufTy).Contents (Elt F) → (⟨S131072, .f32⟩ : BufTy).Contents (Elt F) → (⟨S131072, .f32⟩ : BufTy).Contents (Elt F)),
    nullary main_cst_7 (constant S_ .f32 0x00000000#32),
    unary main_cst_7 main_v26 (broadcastInDim S131072x2048 ![] bcast_S_S131072x2048 : (⟨S_, .f32⟩ : BufTy).Contents (Elt F) → (⟨S131072x2048, .f32⟩ : BufTy).Contents (Elt F)),
    binary main_arg0 main_v26 main_v27 (cmpf .une : (⟨S131072x2048, .f32⟩ : BufTy).Contents (Elt F) → (⟨S131072x2048, .f32⟩ : BufTy).Contents (Elt F) → (⟨S131072x2048, .i1⟩ : BufTy).Contents (Elt F)),
    unary main_v27 main_v28 (uitofp .f32 : (⟨S131072x2048, .i1⟩ : BufTy).Contents (Elt F) → (⟨S131072x2048, .f32⟩ : BufTy).Contents (Elt F)),
    nullary main_cst_8 (constant S_ .f32 0x00000000#32),
    binary main_v28 main_cst_8 main_v29 ((fun x v => Host.reduceAdd x v reducesTo_S131072x2048_S131072_d1 h_S_) : (⟨S131072x2048, .f32⟩ : BufTy).Contents (Elt F) → (⟨S_, .f32⟩ : BufTy).Contents (Elt F) → (⟨S131072, .f32⟩ : BufTy).Contents (Elt F)),
    unary main_arg0 main_v30 ((extractStridedSlice S131072x2047 ![0, 1] · slices_S131072x2048_S131072x2047_0_1) : (⟨S131072x2048, .f32⟩ : BufTy).Contents (Elt F) → (⟨S131072x2047, .f32⟩ : BufTy).Contents (Elt F)),
    unary main_arg0 main_v31 ((extractStridedSlice S131072x2047 ![0, 0] · slices_S131072x2048_S131072x2047_0_0) : (⟨S131072x2048, .f32⟩ : BufTy).Contents (Elt F) → (⟨S131072x2047, .f32⟩ : BufTy).Contents (Elt F)),
    binary main_v30 main_v31 main_v32 (cmpf .une : (⟨S131072x2047, .f32⟩ : BufTy).Contents (Elt F) → (⟨S131072x2047, .f32⟩ : BufTy).Contents (Elt F) → (⟨S131072x2047, .i1⟩ : BufTy).Contents (Elt F)),
    unary main_v32 main_v33 (uitofp .f32 : (⟨S131072x2047, .i1⟩ : BufTy).Contents (Elt F) → (⟨S131072x2047, .f32⟩ : BufTy).Contents (Elt F)),
    nullary main_cst_9 (constant S_ .f32 0x00000000#32),
    binary main_v33 main_cst_9 main_v34 ((fun x v => Host.reduceAdd x v reducesTo_S131072x2047_S131072_d1 h_S_) : (⟨S131072x2047, .f32⟩ : BufTy).Contents (Elt F) → (⟨S_, .f32⟩ : BufTy).Contents (Elt F) → (⟨S131072, .f32⟩ : BufTy).Contents (Elt F)),
    unary main_v21 main_v35 (broadcastInDim S131072x1 ![0] bcast_S131072_S131072x1_0 : (⟨S131072, .f32⟩ : BufTy).Contents (Elt F) → (⟨S131072x1, .f32⟩ : BufTy).Contents (Elt F)),
    unary main_v25 main_v36 (broadcastInDim S131072x1 ![0] bcast_S131072_S131072x1_0 : (⟨S131072, .f32⟩ : BufTy).Contents (Elt F) → (⟨S131072x1, .f32⟩ : BufTy).Contents (Elt F)),
    unary main_v29 main_v37 (broadcastInDim S131072x1 ![0] bcast_S131072_S131072x1_0 : (⟨S131072, .f32⟩ : BufTy).Contents (Elt F) → (⟨S131072x1, .f32⟩ : BufTy).Contents (Elt F)),
    unary main_v34 main_v38 (broadcastInDim S131072x1 ![0] bcast_S131072_S131072x1_0 : (⟨S131072, .f32⟩ : BufTy).Contents (Elt F) → (⟨S131072x1, .f32⟩ : BufTy).Contents (Elt F)) ]

/-- The last four operations: the columns joined, the product with the routing weights, the zero, the sum over the four. -/
abbrev last : List (HloOp τ sig (Elt F)) :=
  [ nary ![main_v35, main_v36, main_v37, main_v38] main_v39 (fun u => concatenate S131072x4 1 [⟨S131072x1, u 0⟩, ⟨S131072x1, u 1⟩, ⟨S131072x1, u 2⟩, ⟨S131072x1, u 3⟩] concatenates_S131072x1_S131072x1_S131072x1_S131072x1_S131072x4_d1),
    binary main_v20 main_v39 main_v40 (mulf : (⟨S131072x4, .f32⟩ : BufTy).Contents (Elt F) → (⟨S131072x4, .f32⟩ : BufTy).Contents (Elt F) → (⟨S131072x4, .f32⟩ : BufTy).Contents (Elt F)),
    nullary main_cst_10 (constant S_ .f32 0x00000000#32),
    binary main_v40 main_cst_10 main_v41 ((fun x v => Host.reduceAdd x v reducesTo_S131072x4_S131072_d1 h_S_) : (⟨S131072x4, .f32⟩ : BufTy).Contents (Elt F) → (⟨S_, .f32⟩ : BufTy).Contents (Elt F) → (⟨S131072, .f32⟩ : BufTy).Contents (Elt F)) ]

/-- The program's 59 operations, in order. -/
abbrev ops : List (HloOp τ sig (Elt F)) := pre ++ last

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem pre_sub : (pre : List (HloOp τ sig (Elt F))).Forall fun op => op.bufs ⊆ tcRefs τ sig :=
  ⟨binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., binary_bufs_sub .., nullary_bufs_sub .., unary_bufs_sub .., binary_bufs_sub .., binary_bufs_sub .., nullary_bufs_sub .., unary_bufs_sub .., binary_bufs_sub .., unary_bufs_sub .., nullary_bufs_sub .., binary_bufs_sub .., unary_bufs_sub .., unary_bufs_sub .., binary_bufs_sub .., unary_bufs_sub .., nullary_bufs_sub .., binary_bufs_sub .., unary_bufs_sub .., unary_bufs_sub .., unary_bufs_sub .., unary_bufs_sub ..⟩
theorem last_sub : (last : List (HloOp τ sig (Elt F))).Forall fun op => op.bufs ⊆ tcRefs τ sig :=
  ⟨nary_bufs_sub .., binary_bufs_sub .., nullary_bufs_sub .., binary_bufs_sub ..⟩
theorem ops_sub : (ops : List (HloOp τ sig (Elt F))).Forall fun op => op.bufs ⊆ tcRefs τ sig :=
  List.forall_iff_forall_mem.mpr fun op h => (List.mem_append.mp h).elim
    (List.forall_iff_forall_mem.mp pre_sub op) (List.forall_iff_forall_mem.mp last_sub op)

set_option maxRecDepth 8192 in
theorem ops_fresh : ∀ op ∈ (ops : List (HloOp τ sig (Elt F))), op.fresh = ∅ := by
  intro op h
  rcases List.mem_append.mp h with h | h
  · (repeat (cases h with | head => rfl | tail _ h => ?_)); exact nomatch h
  · (repeat (cases h with | head => rfl | tail _ h => ?_)); exact nomatch h

/-- Two stretches of operations, one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## What the first 55 operations leave -/

set_option maxRecDepth 8192 in
set_option maxHeartbeats 2000000 in
/-- The routing weights. -/
theorem pre_routes (V : Valuation τ sig (Elt F)) :
    after pre V (Proc.devRef .tc main_v20) = ReadP.val_main_v20 (F := F) (V (Proc.devRef .tc main_arg0)) (V (Proc.devRef .tc main_arg1)) (V (Proc.devRef .tc main_arg2)) (V (Proc.devRef .tc main_arg3)) := by
  after_results_simp <;> rfl

set_option maxRecDepth 8192 in
set_option maxHeartbeats 2000000 in
/-- The column of row sums. -/
theorem pre_col0 (V : Valuation τ sig (Elt F)) :
    after pre V (Proc.devRef .tc main_v35) = ReadP.val_main_v35 (F := F) (V (Proc.devRef .tc main_arg0)) := by
  after_results_simp <;> rfl

set_option maxRecDepth 8192 in
set_option maxHeartbeats 2000000 in
/-- The column of largest entries over (sum + the small addend). -/
theorem pre_col1 (V : Valuation τ sig (Elt F)) :
    after pre V (Proc.devRef .tc main_v36) = ReadP.val_main_v36 (F := F) (V (Proc.devRef .tc main_arg0)) := by
  after_results_simp <;> rfl

set_option maxRecDepth 8192 in
set_option maxHeartbeats 2000000 in
/-- The column of counts of entries different from 0. -/
theorem pre_col2 (V : Valuation τ sig (Elt F)) :
    after pre V (Proc.devRef .tc main_v37) = ReadP.val_main_v37 (F := F) (V (Proc.devRef .tc main_arg0)) := by
  after_results_simp <;> rfl

set_option maxRecDepth 8192 in
set_option maxHeartbeats 2000000 in
/-- The column of counts of positions whose entry differs from the one before. -/
theorem pre_col3 (V : Valuation τ sig (Elt F)) :
    after pre V (Proc.devRef .tc main_v38) = ReadP.val_main_v38 (F := F) (V (Proc.devRef .tc main_arg0)) := by
  after_results_simp <;> rfl

/-! ## The whole line -/

set_option maxRecDepth 8192 in
set_option maxHeartbeats 2000000 in
/-- The result buffer after all 59 operations: the last stage's value of the four arguments. -/
theorem after_ops (V : Valuation τ sig (Elt F)) :
    after ops V (Proc.devRef .tc main_v41) = ReadP.val_main_v41 (F := F) (V (Proc.devRef .tc main_arg0)) (V (Proc.devRef .tc main_arg1)) (V (Proc.devRef .tc main_arg2)) (V (Proc.devRef .tc main_arg3)) := by
  have h20 := pre_routes V
  have h35 := pre_col0 V
  have h36 := pre_col1 V
  have h37 := pre_col2 V
  have h38 := pre_col3 V
  rw [after_append]
  generalize after pre V = W at h20 h35 h36 h37 h38 ⊢
  after_results
  change Host.reduceAdd (mulf (W (Proc.devRef .tc main_v20))
      (concatenate S131072x4 1 [⟨S131072x1, W (Proc.devRef .tc main_v35)⟩, ⟨S131072x1, W (Proc.devRef .tc main_v36)⟩,
        ⟨S131072x1, W (Proc.devRef .tc main_v37)⟩, ⟨S131072x1, W (Proc.devRef .tc main_v38)⟩]
        concatenates_S131072x1_S131072x1_S131072x1_S131072x1_S131072x4_d1))
    (constant S_ .f32 0x00000000#32) reducesTo_S131072x4_S131072_d1 h_S_ = _
  rw [h20, h35, h36, h37, h38]
  rfl

set_option maxRecDepth 8192 in
set_option maxHeartbeats 2000000 in
/-- On every device, from any memory with zero counters: every weakly fair execution of the reference terminates with the
    result at the last stage's value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41) = ReadP.val_main_v41 (F := F) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v41).trans ((after_ops (launchContents m c)).trans rfl),
      (h c main_arg0).trans (by rw [after_append]; after_results_simp <;> rfl),
      (h c main_arg1).trans (by rw [after_append]; after_results_simp <;> rfl),
      (h c main_arg2).trans (by rw [after_append]; after_results_simp <;> rfl),
      (h c main_arg3).trans (by rw [after_append]; after_results_simp <;> rfl)⟩)
    (run_seq scopedRefs_eq scopedSems_eq defs main (fun _ => ops) main_eq (fun _ => ops_sub) m ρ (fun _ => ops_fresh))

end Cert.ReferenceIdeal.HandRun

end
-- ==== Proof.RefRoutes.lean ====
/-
  The four routing weights of a row, as the reference computes them.

  At (i, e) the reference's contraction of the [131072, 2048] matrix with the four weight vectors is the sum over k of
  x (i, k) * W (e, k), and the bias reaches every row through two broadcasts; the clipped sample's noise is spelt with two
  negations. The largest score of a row is a fold of max from the value of the word of minus infinity; the reference takes the
  maximum of that fold with the same value once more, which changes nothing. The exponentials of the scores less the largest,
  over their sum from 0, are the softmax in its stable form.
-/
import proofs.«106794_j32100585571071_2_alg».proof.Proof.RefStages
import proofs.«106794_j32100585571071_2_alg».proof.Proof.RowSpec
import proofs.«106794_j32100585571071_2_alg».proof.Proof.LibRowOps
import proofs.«106794_j32100585571071_2_alg».proof.Proof.LibKeepdims
import Idealize.ShloMosaic.Lib.ValueIdx
import Idealize.ShloMosaic.PureOps.Ideal.Laws

noncomputable section

namespace Cert.ReferenceIdeal.Rows

open Cert.ReferenceIdeal Cert.ReferenceIdeal.Gen Cert.ReferenceIdeal.ReadP Idealize.ShloMosaic Idealize.ShloMosaic.ValueIdx Cert.RowSpec

/-- Two indices of a two-axis shape with the same two coordinates are one index. -/
local macro "same_ix2" : tactic => `(tactic| (funext d; match d with | ⟨0, _⟩ => rfl | ⟨1, _⟩ => rfl))
local macro "same_ix1" : tactic => `(tactic| (funext d; match d with | ⟨0, _⟩ => rfl))

theorem logit_ref (x0 : (⟨S131072x2048, .f32⟩ : BufTy).Contents (Elt Ideal)) (x1 : (⟨S4x2048, .f32⟩ : BufTy).Contents (Elt Ideal)) (x2 : (⟨S4, .f32⟩ : BufTy).Contents (Elt Ideal)) (i : Fin 131072) (e : Fin 4) :
    val_main_v3 (F := Ideal) x0 x1 x2 (ix2 i e) = logit (fun k => x0 (ix2 i k)) (fun e k => x1 (ix2 e k)) (fun e => x2 (ix1 e)) e := by
  rw [val_main_v3_apply, val_main_v0_apply, val_main_v2_apply, val_main_v1_apply]
  have hl : ∀ k, lidx_main_v0 (ix2 i e) k = ix2 i k := fun k => by same_ix2
  have hr : ∀ k, ridx_main_v0 (ix2 i e) k = ix2 e k := fun k => by same_ix2
  have hb : idx_main_v1 (idx_main_v2 (ix2 i e)) = ix1 e := by same_ix1
  simp only [hl, hr, hb]
  rfl

theorem noise_ref (x3 : (⟨S131072x4, .f32⟩ : BufTy).Contents (Elt Ideal)) (i : Fin 131072) (e : Fin 4) :
    val_main_v8 (F := Ideal) x3 (ix2 i e) = noise (x3 (ix2 i e)) := by
  rw [val_main_v8_apply, val_main_v7_apply, val_main_v6_apply, val_main_v5_apply, val_main_v4_apply, val_main_call0_v4_apply,
    val_main_call0_v3_apply, val_main_cst_0_apply, val_main_call0_v2_apply, val_main_call0_v1_apply, val_main_call0_v0_apply,
    val_main_cst_apply]
  rfl

theorem score_ref (x0 : (⟨S131072x2048, .f32⟩ : BufTy).Contents (Elt Ideal)) (x1 : (⟨S4x2048, .f32⟩ : BufTy).Contents (Elt Ideal)) (x2 : (⟨S4, .f32⟩ : BufTy).Contents (Elt Ideal)) (x3 : (⟨S131072x4, .f32⟩ : BufTy).Contents (Elt Ideal)) (i : Fin 131072) (e : Fin 4) :
    val_main_v9 (F := Ideal) x0 x1 x2 x3 (ix2 i e) = score (fun k => x0 (ix2 i k)) (fun e k => x1 (ix2 e k)) (fun e => x2 (ix1 e)) (fun e => x3 (ix2 i e)) e := by
  rw [val_main_v9_apply, logit_ref, noise_ref]
  rfl

/-- The largest score of row i, the extra maximum with the fold's own start included. -/
theorem largest_ref (x0 : (⟨S131072x2048, .f32⟩ : BufTy).Contents (Elt Ideal)) (x1 : (⟨S4x2048, .f32⟩ : BufTy).Contents (Elt Ideal)) (x2 : (⟨S4, .f32⟩ : BufTy).Contents (Elt Ideal)) (x3 : (⟨S131072x4, .f32⟩ : BufTy).Contents (Elt Ideal)) (i : Fin 131072) :
    val_main_v12 (F := Ideal) x0 x1 x2 x3 (ix1 i) = largest (score (fun k => x0 (ix2 i k)) (fun e k => x1 (ix2 e k)) (fun e => x2 (ix1 e)) (fun e => x3 (ix2 i e))) := by
  rw [val_main_v12_apply, val_main_v11_apply, val_main_cst_2_apply]
  unfold val_main_v10
  have hfold : Host.reduce (FloatOps.maximumf (F := Ideal) (φ := .f32)) (val_main_v9 (F := Ideal) x0 x1 x2 x3) (val_main_cst_1 (F := Ideal))
      reducesTo_S131072x4_S131072_d1 h_S_ (ix1 i)
      = largest (score (fun k => x0 (ix2 i k)) (fun e k => x1 (ix2 e k)) (fun e => x2 (ix1 e)) (fun e => x3 (ix2 i e))) := by
    refine (Host.reduce_eq_fold_single (FloatOps.maximumf (F := Ideal) (φ := .f32)) _ _ reducesTo_S131072x4_S131072_d1
      (by decide) h_S_ (ix1 i)).trans ?_
    unfold largest
    refine congrArg₂ (fun b f => Finset.fold max b f (Finset.univ : Finset (Fin 4))) rfl (funext fun k => ?_)
    show val_main_v9 (F := Ideal) x0 x1 x2 x3 (Shape.Reduces.lift _ (ix1 i) k) = _
    rw [RowOps.lift_row]
    exact score_ref x0 x1 x2 x3 i _
  rw [hfold]
  exact Keepdims.max_fold_max_self _ _ _

theorem shifted_ref (x0 : (⟨S131072x2048, .f32⟩ : BufTy).Contents (Elt Ideal)) (x1 : (⟨S4x2048, .f32⟩ : BufTy).Contents (Elt Ideal)) (x2 : (⟨S4, .f32⟩ : BufTy).Contents (Elt Ideal)) (x3 : (⟨S131072x4, .f32⟩ : BufTy).Contents (Elt Ideal)) (i : Fin 131072) (e : Fin 4) :
    val_main_v16 (F := Ideal) x0 x1 x2 x3 (ix2 i e)
      = Ideal.exp (score (fun k => x0 (ix2 i k)) (fun e k => x1 (ix2 e k)) (fun e => x2 (ix1 e)) (fun e => x3 (ix2 i e)) e - largest (score (fun k => x0 (ix2 i k)) (fun e k => x1 (ix2 e k)) (fun e => x2 (ix1 e)) (fun e => x3 (ix2 i e)))) := by
  rw [val_main_v16_apply, val_main_v15_apply, val_main_v14_apply, val_main_v13_apply, score_ref]
  have h : idx_main_v13 (idx_main_v14 (ix2 i e)) = ix1 i := by same_ix1
  rw [h, largest_ref]
  rfl

theorem route_ref (x0 : (⟨S131072x2048, .f32⟩ : BufTy).Contents (Elt Ideal)) (x1 : (⟨S4x2048, .f32⟩ : BufTy).Contents (Elt Ideal)) (x2 : (⟨S4, .f32⟩ : BufTy).Contents (Elt Ideal)) (x3 : (⟨S131072x4, .f32⟩ : BufTy).Contents (Elt Ideal)) (i : Fin 131072) (e : Fin 4) :
    val_main_v20 (F := Ideal) x0 x1 x2 x3 (ix2 i e) = route (score (fun k => x0 (ix2 i k)) (fun e k => x1 (ix2 e k)) (fun e => x2 (ix1 e)) (fun e => x3 (ix2 i e))) e := by
  rw [val_main_v20_apply, val_main_v19_apply, val_main_v18_apply, val_main_v17_apply, val_main_cst_3_apply, shifted_ref]
  have h : idx_main_v18 (idx_main_v19 (ix2 i e)) = ix1 i := by same_ix1
  have hk : ∀ k, idx_main_v17 (ix1 i) k = ix2 i k := fun k => by same_ix2
  simp only [h, hk, shifted_ref]
  show Ideal.div _ (Ideal.ofBits .f32 0x00000000#32 + _) = _
  rw [Ideal.ofBits_zero_f32, zero_add]
  rfl

end Cert.ReferenceIdeal.Rows

end
-- ==== Proof.RefValue.lean ====
/-
  The four statistics of a row and the row's result, as the reference computes them.

  A host sum starts from the value of the zero word, which is 0. The largest entry of a row is a fold of max over the row. A
  comparison's one-bit word read as an unsigned integer is 0 or 1. The last statistic compares the row without its first entry
  with the row without its last entry, position by position: position k of the two slices holds entries k + 1 and k. The four
  statistics, as four columns joined side by side, are multiplied by the four routing weights and summed over the four, from 0.
-/
import proofs.«106794_j32100585571071_2_alg».proof.Proof.RefStages
import proofs.«106794_j32100585571071_2_alg».proof.Proof.RefRoutes
import proofs.«106794_j32100585571071_2_alg».proof.Proof.RowSpec
import proofs.«106794_j32100585571071_2_alg».proof.Proof.LibRowOps
import Idealize.ShloMosaic.Lib.Pipeline.Value
import Idealize.ShloMosaic.Lib.ValueIdx
import Idealize.ShloMosaic.PureOps.Ideal.Laws

noncomputable section

namespace Cert.ReferenceIdeal.Rows

open Cert.ReferenceIdeal Cert.ReferenceIdeal.Gen Cert.ReferenceIdeal.ReadP Idealize.ShloMosaic Idealize.ShloMosaic.ValueIdx Cert.RowSpec

local macro "same_ix2" : tactic => `(tactic| (funext d; match d with | ⟨0, _⟩ => rfl | ⟨1, _⟩ => rfl))
local macro "same_ix1" : tactic => `(tactic| (funext d; match d with | ⟨0, _⟩ => rfl))

/-- The word of "a differs from b", read as an unsigned integer, is the comparison's tick. -/
theorem unsigned_word_tick (a b : EReal) : ((((Ideal.cmp .une a b).toNat : ℕ) : ℝ) : EReal) = tick (a ≠ b) := by
  have h1 : (BitVec.ofBool true).toNat = 1 := by decide
  have h0 : (BitVec.ofBool false).toNat = 0 := by decide
  unfold Ideal.cmp tick
  by_cases h : a ≠ b
  · rw [if_pos h, decide_eq_true h, h1]; norm_num
  · rw [if_neg h, decide_eq_false h, h0]; norm_num

theorem total_ref (x0 : (⟨S131072x2048, .f32⟩ : BufTy).Contents (Elt Ideal)) (i : Fin 131072) : val_main_v21 (F := Ideal) x0 (ix1 i) = total (fun k => x0 (ix2 i k)) := by
  rw [val_main_v21_apply, val_main_cst_4_apply]
  have hk : ∀ k, idx_main_v21 (ix1 i) k = ix2 i k := fun k => by same_ix2
  simp only [hk]
  show Ideal.ofBits .f32 0x00000000#32 + _ = _
  rw [Ideal.ofBits_zero_f32, zero_add]
  rfl

theorem peak_ref (x0 : (⟨S131072x2048, .f32⟩ : BufTy).Contents (Elt Ideal)) (i : Fin 131072) : val_main_v25 (F := Ideal) x0 (ix1 i) = peak (fun k => x0 (ix2 i k)) := by
  rw [val_main_v25_apply, val_main_v24_apply, val_main_v23_apply, val_main_cst_6_apply, total_ref]
  unfold val_main_v22
  have hfold : Host.reduce (FloatOps.maximumf (F := Ideal) (φ := .f32)) x0 (val_main_cst_5 (F := Ideal))
      reducesTo_S131072x2048_S131072_d1 h_S_ (ix1 i) = largest (fun k => x0 (ix2 i k)) := by
    refine (Host.reduce_eq_fold_single (FloatOps.maximumf (F := Ideal) (φ := .f32)) _ _ reducesTo_S131072x2048_S131072_d1
      (by decide) h_S_ (ix1 i)).trans ?_
    unfold largest
    refine congrArg₂ (fun b f => Finset.fold max b f (Finset.univ : Finset (Fin 2048))) rfl (funext fun k => ?_)
    show x0 (Shape.Reduces.lift _ (ix1 i) k) = _
    rw [RowOps.lift_row]
    rfl
  rw [hfold]
  rfl

theorem nonzeros_ref (x0 : (⟨S131072x2048, .f32⟩ : BufTy).Contents (Elt Ideal)) (i : Fin 131072) : val_main_v29 (F := Ideal) x0 (ix1 i) = nonzeros (fun k => x0 (ix2 i k)) := by
  rw [val_main_v29_apply, val_main_cst_8_apply]
  have hk : ∀ k, idx_main_v29 (ix1 i) k = ix2 i k := fun k => by same_ix2
  simp only [hk, val_main_v28_apply, val_main_v27_apply, val_main_v26_apply, val_main_cst_7_apply]
  show Ideal.ofBits .f32 0x00000000#32
    + ∑ k : Fin 2048, ((((Ideal.cmp .une (x0 (ix2 i k)) (Ideal.ofBits .f32 0x00000000#32)).toNat : ℕ) : ℝ) : EReal) = _
  rw [Ideal.ofBits_zero_f32, zero_add]
  exact Finset.sum_congr rfl fun k _ => unsigned_word_tick _ _

theorem changes_ref (x0 : (⟨S131072x2048, .f32⟩ : BufTy).Contents (Elt Ideal)) (i : Fin 131072) : val_main_v34 (F := Ideal) x0 (ix1 i) = changes (fun k => x0 (ix2 i k)) := by
  rw [val_main_v34_apply, val_main_cst_9_apply]
  have hk : ∀ k : Fin 2047, idx_main_v34 (ix1 i) k = ix2 i k := fun k => by same_ix2
  have h30 : ∀ k : Fin 2047, idx_main_v30 (ix2 i k) = ix2 i k.succ := fun k => by
    funext d
    match d with
    | ⟨0, _⟩ => rfl
    | ⟨1, _⟩ => exact Fin.ext (by show 1 + k.val = k.val + 1; omega)
  have h31 : ∀ k : Fin 2047, idx_main_v31 (ix2 i k) = ix2 i k.castSucc := fun k => by same_ix2
  simp only [hk, val_main_v33_apply, val_main_v32_apply, val_main_v30_apply, val_main_v31_apply, h30, h31]
  show Ideal.ofBits .f32 0x00000000#32
    + ∑ k : Fin 2047, ((((Ideal.cmp .une (x0 (ix2 i k.succ)) (x0 (ix2 i k.castSucc))).toNat : ℕ) : ℝ) : EReal) = _
  rw [Ideal.ofBits_zero_f32, zero_add]
  exact Finset.sum_congr rfl fun k _ => unsigned_word_tick _ _

/-! ## The four columns, and their join -/

theorem col0_ref (x0 : (⟨S131072x2048, .f32⟩ : BufTy).Contents (Elt Ideal)) (i : Fin 131072) : val_main_v35 (F := Ideal) x0 (ix2 i (0 : Fin 1)) = total (fun k => x0 (ix2 i k)) := by
  rw [val_main_v35_apply]
  have h : idx_main_v35 (ix2 i (0 : Fin 1)) = ix1 i := by same_ix1
  rw [h, total_ref]

theorem col1_ref (x0 : (⟨S131072x2048, .f32⟩ : BufTy).Contents (Elt Ideal)) (i : Fin 131072) : val_main_v36 (F := Ideal) x0 (ix2 i (0 : Fin 1)) = peak (fun k => x0 (ix2 i k)) := by
  rw [val_main_v36_apply]
  have h : idx_main_v36 (ix2 i (0 : Fin 1)) = ix1 i := by same_ix1
  rw [h, peak_ref]

theorem col2_ref (x0 : (⟨S131072x2048, .f32⟩ : BufTy).Contents (Elt Ideal)) (i : Fin 131072) : val_main_v37 (F := Ideal) x0 (ix2 i (0 : Fin 1)) = nonzeros (fun k => x0 (ix2 i k)) := by
  rw [val_main_v37_apply]
  have h : idx_main_v37 (ix2 i (0 : Fin 1)) = ix1 i := by same_ix1
  rw [h, nonzeros_ref]

theorem col3_ref (x0 : (⟨S131072x2048, .f32⟩ : BufTy).Contents (Elt Ideal)) (i : Fin 131072) : val_main_v38 (F := Ideal) x0 (ix2 i (0 : Fin 1)) = changes (fun k => x0 (ix2 i k)) := by
  rw [val_main_v38_apply]
  have h : idx_main_v38 (ix2 i (0 : Fin 1)) = ix1 i := by same_ix1
  rw [h, changes_ref]

theorem stack0 (x0 : (⟨S131072x2048, .f32⟩ : BufTy).Contents (Elt Ideal)) (i : Fin 131072) :
    val_main_v39 (F := Ideal) x0 (ix2 i (0 : Fin 4)) = val_main_v35 (F := Ideal) x0 (ix2 i (0 : Fin 1)) := by
  unfold val_main_v39
  exact concatenate_apply_piece (t := S131072x4) (1 : Fin 2)
    ([⟨S131072x1, val_main_v35 (F := Ideal) x0⟩, ⟨S131072x1, val_main_v36 (F := Ideal) x0⟩, ⟨S131072x1, val_main_v37 (F := Ideal) x0⟩,
      ⟨S131072x1, val_main_v38 (F := Ideal) x0⟩] : List ((s : Shape) × (s.Idx → EReal)))
    concatenates_S131072x1_S131072x1_S131072x1_S131072x1_S131072x4_d1 (ix2 i (0 : Fin 4)) 0 (by simp) S131072x1
    (val_main_v35 (F := Ideal) x0) rfl rfl 0 rfl (ix2 i (0 : Fin 1))
    (fun b hb => by
      match b with
      | ⟨0, _⟩ => rfl
      | ⟨1, _⟩ => exact absurd rfl hb) rfl

theorem stack1 (x0 : (⟨S131072x2048, .f32⟩ : BufTy).Contents (Elt Ideal)) (i : Fin 131072) :
    val_main_v39 (F := Ideal) x0 (ix2 i (1 : Fin 4)) = val_main_v36 (F := Ideal) x0 (ix2 i (0 : Fin 1)) := by
  unfold val_main_v39
  exact concatenate_apply_piece (t := S131072x4) (1 : Fin 2)
    ([⟨S131072x1, val_main_v35 (F := Ideal) x0⟩, ⟨S131072x1, val_main_v36 (F := Ideal) x0⟩, ⟨S131072x1, val_main_v37 (F := Ideal) x0⟩,
      ⟨S131072x1, val_main_v38 (F := Ideal) x0⟩] : List ((s : Shape) × (s.Idx → EReal)))
    concatenates_S131072x1_S131072x1_S131072x1_S131072x1_S131072x4_d1 (ix2 i (1 : Fin 4)) 1 (by simp) S131072x1
    (val_main_v36 (F := Ideal) x0) rfl rfl 1 rfl (ix2 i (0 : Fin 1))
    (fun b hb => by
      match b with
      | ⟨0, _⟩ => rfl
      | ⟨1, _⟩ => exact absurd rfl hb) rfl

theorem stack2 (x0 : (⟨S131072x2048, .f32⟩ : BufTy).Contents (Elt Ideal)) (i : Fin 131072) :
    val_main_v39 (F := Ideal) x0 (ix2 i (2 : Fin 4)) = val_main_v37 (F := Ideal) x0 (ix2 i (0 : Fin 1)) := by
  unfold val_main_v39
  exact concatenate_apply_piece (t := S131072x4) (1 : Fin 2)
    ([⟨S131072x1, val_main_v35 (F := Ideal) x0⟩, ⟨S131072x1, val_main_v36 (F := Ideal) x0⟩, ⟨S131072x1, val_main_v37 (F := Ideal) x0⟩,
      ⟨S131072x1, val_main_v38 (F := Ideal) x0⟩] : List ((s : Shape) × (s.Idx → EReal)))
    concatenates_S131072x1_S131072x1_S131072x1_S131072x1_S131072x4_d1 (ix2 i (2 : Fin 4)) 2 (by simp) S131072x1
    (val_main_v37 (F := Ideal) x0) rfl rfl 2 rfl (ix2 i (0 : Fin 1))
    (fun b hb => by
      match b with
      | ⟨0, _⟩ => rfl
      | ⟨1, _⟩ => exact absurd rfl hb) rfl

theorem stack3 (x0 : (⟨S131072x2048, .f32⟩ : BufTy).Contents (Elt Ideal)) (i : Fin 131072) :
    val_main_v39 (F := Ideal) x0 (ix2 i (3 : Fin 4)) = val_main_v38 (F := Ideal) x0 (ix2 i (0 : Fin 1)) := by
  unfold val_main_v39
  exact concatenate_apply_piece (t := S131072x4) (1 : Fin 2)
    ([⟨S131072x1, val_main_v35 (F := Ideal) x0⟩, ⟨S131072x1, val_main_v36 (F := Ideal) x0⟩, ⟨S131072x1, val_main_v37 (F := Ideal) x0⟩,
      ⟨S131072x1, val_main_v38 (F := Ideal) x0⟩] : List ((s : Shape) × (s.Idx → EReal)))
    concatenates_S131072x1_S131072x1_S131072x1_S131072x1_S131072x4_d1 (ix2 i (3 : Fin 4)) 3 (by simp) S131072x1
    (val_main_v38 (F := Ideal) x0) rfl rfl 3 rfl (ix2 i (0 : Fin 1))
    (fun b hb => by
      match b with
      | ⟨0, _⟩ => rfl
      | ⟨1, _⟩ => exact absurd rfl hb) rfl

/-- Row i of the reference's result is the row's value. -/
theorem value_ref (x0 : (⟨S131072x2048, .f32⟩ : BufTy).Contents (Elt Ideal)) (x1 : (⟨S4x2048, .f32⟩ : BufTy).Contents (Elt Ideal)) (x2 : (⟨S4, .f32⟩ : BufTy).Contents (Elt Ideal)) (x3 : (⟨S131072x4, .f32⟩ : BufTy).Contents (Elt Ideal)) (i : Fin 131072) :
    val_main_v41 (F := Ideal) x0 x1 x2 x3 (ix1 i) = value (fun k => x0 (ix2 i k)) (fun e k => x1 (ix2 e k)) (fun e => x2 (ix1 e)) (fun e => x3 (ix2 i e)) := by
  rw [val_main_v41_apply, val_main_cst_10_apply]
  have hk : ∀ e, idx_main_v41 (ix1 i) e = ix2 i e := fun e => by same_ix2
  simp only [hk, val_main_v40_apply]
  show Ideal.ofBits .f32 0x00000000#32
    + ∑ e : Fin 4, val_main_v20 (F := Ideal) x0 x1 x2 x3 (ix2 i e) * val_main_v39 (F := Ideal) x0 (ix2 i e) = _
  rw [Ideal.ofBits_zero_f32, zero_add, Fin.sum_univ_four, stack0, stack1, stack2, stack3, col0_ref, col1_ref, col2_ref, col3_ref,
    route_ref, route_ref, route_ref, route_ref]
  rfl

end Cert.ReferenceIdeal.Rows

end
-- ==== Proof.lean ====
/-
  The kernel and its reference compute one function, row by row.

  Both take a [131072, 2048] matrix of rows, four weight vectors, four biases and four uniform samples per row, and both return,
  for every row, the softmax-weighted sum of four statistics of the row (Proof/RowSpec.lean says which). Over the extended reals:

  * the kernel works on 256 blocks of 512 rows. On a block it contracts the rows with the weights into a zero accumulator, adds
    the bias row, adds the samples' noise spelt 0 - log (0 - log u'), takes the row maximum and the row sum of exponentials to
    form the softmax, sums each row, divides each row's maximum by (its sum + a small constant), counts the entries different
    from 0, and counts the changes between neighbouring entries by comparing the block with its rotation by one position and
    taking the comparison at position 0 away again; the four products are added from the left (Proof/KernelStats.lean,
    KernelCombine.lean, KernelRoutes.lean, KernelBlock.lean). Block t holds rows 512 t to 512 t + 511, so the blocks tile the
    result (Proof/Blocks.lean);
  * the reference does the same on the whole matrix at once, with the noise spelt with negations, one more maximum of the
    row's largest score with the fold's own starting value, the changes counted by comparing the row without its first entry
    with the row without its last, and the four statistics joined as four columns, multiplied by the routing weights and summed
    over the four (Proof/RefRoutes.lean, RefValue.lean, over the program's run in Proof/RefRun.lean).

  The laws that join the two: a sum may be taken in any order and grouping; zero less a value is its negative; the maximum of a
  fold of max with the value the fold starts from is the fold; a comparison's count is 0 or 1, a real number, so taking it away
  from a sum that contains it leaves the rest. None of them needs the inputs to be finite: the precondition is not opened.
  The idealization rewrote no operation, so the kernel's idealization is its own text read over the extended reals.
-/
import proofs.«106794_j32100585571071_2_alg».proof.Defs
import proofs.«106794_j32100585571071_2_alg».proof.Proof.Gen.Kernel
import proofs.«106794_j32100585571071_2_alg».proof.Proof.Gen.Kernel.Frame
import proofs.«106794_j32100585571071_2_alg».proof.Proof.Gen.KernelIdeal
import proofs.«106794_j32100585571071_2_alg».proof.Proof.Gen.KernelIdeal.Frame
import proofs.«106794_j32100585571071_2_alg».proof.Proof.Gen.KernelIdeal.Value
import proofs.«106794_j32100585571071_2_alg».proof.Proof.Gen.ReferenceIdeal
import proofs.«106794_j32100585571071_2_alg».proof.Proof.Gen.Pre_finite_inputs
import proofs.«106794_j32100585571071_2_alg».proof.Proof.Blocks
import proofs.«106794_j32100585571071_2_alg».proof.Proof.RefRun
import proofs.«106794_j32100585571071_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's last stage is the kernel's result function of the same four arrays: at every row, the row's value. -/
theorem result_eq (a0 : Cert.KernelIdeal.S131072x2048.Idx → EReal) (a1 : Cert.KernelIdeal.S4x2048.Idx → EReal)
    (a2 : Cert.KernelIdeal.S4.Idx → EReal) (a3 : Cert.KernelIdeal.S131072x4.Idx → EReal) :
    Cert.ReferenceIdeal.ReadP.val_main_v41 (F := Ideal) a0 a1 a2 a3 = Cert.KernelIdeal.Whole.result a0 a1 a2 a3 := by
  funext j
  obtain ⟨i, rfl⟩ : ∃ i : Fin 131072, j = ix1 i :=
    ⟨⟨(j 0).val, (j 0).isLt⟩, by funext d; match d with | ⟨0, _⟩ => rfl⟩
  rw [Cert.ReferenceIdeal.Rows.value_ref]
  rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result's value dropped. -/
theorem frame_reference : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- The kernel's result array ends at the result function of its arguments (Proof/Blocks.lean), the reference's at its last
    stage's value of arguments that agree with them (Proof/RefRun.lean): one function (`result_eq`). -/
theorem algebraic : Cert.algebraic_KernelIdeal_ReferenceIdeal := by
  intro m ρ m' ρ' _ hagree
  refine ⟨fun c => Cert.KernelIdeal.Whole.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), Cert.KernelIdeal.Whole.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2]
  exact result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
